-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 62
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.KernelRegion0.lean ====
/-
  Region 0 of the kernel program: a grid of 20 points, point t taking rows 5000·t … 5000·t + 4999 of the node features x
  and of the column of node weights d, and all of the 128 × 128 matrix W. The body multiplies its block of x by W (the
  change of format before the product is the identity on exact values) and scales row r of the product by the weight
  of that row. So the array the region leaves is ONE function of the arrays it reads, the same at every point:
      (n, f)  ↦  (∑ k, x(n, k) · W(k, f)) · d(n, 0).
  Point t's write-back is block t of that function, the 20 blocks tile the array, hence the array after the region.
-/
import proofs.«108106_j13176959664143_2_alg».proof.Proof.Gen.KernelIdeal.Frame
import proofs.«108106_j13176959664143_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The product of a node's feature row by the matrix, scaled by the node's weight. -/
def scaledProduct (x : S100000x128.Idx → EReal) (w : S128x128.Idx → EReal) (d : S100000x1.Idx → EReal) :
    S100000x128.Idx → EReal :=
  fun i => (∑ k : Fin 128, x (ix2 ⟨(i 0).val, idx2_lt0 i⟩ k) * w (ix2 k ⟨(i 1).val, idx2_lt1 i⟩))
    * d (ix2 ⟨(i 0).val, idx2_lt0 i⟩ (0 : Fin 1))

theorem scaledProduct_apply (x : S100000x128.Idx → EReal) (w : S128x128.Idx → EReal) (d : S100000x1.Idx → EReal)
    (n : Fin 100000) (f : Fin 128) :
    scaledProduct x w d (ix2 n f) = (∑ k : Fin 128, x (ix2 n k) * w (ix2 k f)) * d (ix2 n (0 : Fin 1)) := rfl

/-- The body's matrix product into the zero accumulator, at (p, q): the row of the left by the column of the right. -/
theorem product_apply (x : FVec Ideal S5000x128 .bf16) (w : FVec Ideal S128x128 .bf16) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) :=
  Cert.LibDense.matmul_zero_rc dot_S5000x128_S128x128_S5000x128_1_0_0_1_n_n rfl rfl
    (fun i c => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i c => dot_S5000x128_S128x128_S5000x128_1_0_0_1_n_n.lhsIdx_val_of_single rfl i c)
    (fun i c => dot_S5000x128_S128x128_S5000x128_1_0_0_1_n_n.rhsIdx_val_of_single rfl i c)
    (fun i c => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none x w p q

/-- The body's stored value at (p, q) of its block, from the blocks it loads. -/
theorem payload_apply (x0 : Vec Ideal S5000x128 .f32) (x1 : Vec Ideal S128x128 .f32) (x2 : Vec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  show (matmul (F := Ideal) dot_S5000x128_S128x128_S5000x128_1_0_0_1_n_n none (truncf .bf16 x0 bitsLt_bf16_f32) (truncf .bf16 x1 bitsLt_bf16_f32)
        (constant S5000x128 .f32 0x00000000#32) (ix2 p q))
      * (broadcastTo S5000x128 (shapeCast S5000x1 x2 shapeCasts_S5000x1_S5000x1) broadcasts_S5000x1_S5000x128 (ix2 p q)) = _
  rw [product_apply, Cert.LibDense.broadcastTo_a1_ab_apply, shapeCast_self]
  rfl

/-- One point: when the loaded blocks are the arrays X, W, D read where the output block's entry j sits (entry i of the
    array), the stored value at j is the whole-array function at i. -/
theorem point (x0 : Vec Ideal S5000x128 .f32) (x1 : Vec Ideal S128x128 .f32) (x2 : Vec Ideal S5000x1 .f32)
    (X : S100000x128.Idx → EReal) (W : S128x128.Idx → EReal) (D : S100000x1.Idx → EReal)
    (j : S5000x128.Idx) (i : S100000x128.Idx)
    (h0 : ∀ k : Fin 128, x0 (ix2 ⟨(j 0).val, idx2_lt0 j⟩ k) = X (ix2 ⟨(i 0).val, idx2_lt0 i⟩ k))
    (h1 : ∀ k : Fin 128, x1 (ix2 k ⟨(j 1).val, idx2_lt1 j⟩) = W (ix2 k ⟨(i 1).val, idx2_lt1 i⟩))
    (h2 : x2 (ix2 ⟨(j 0).val, idx2_lt0 j⟩ (0 : Fin 1)) = D (ix2 ⟨(i 0).val, idx2_lt0 i⟩ (0 : Fin 1))) :
    k0_pay1 (F := Ideal) x0 x1 x2 j = scaledProduct X W D i := by
  have hj : j = ix2 (⟨(j 0).val, idx2_lt0 j⟩ : Fin 5000) (⟨(j 1).val, idx2_lt1 j⟩ : Fin 128) := eq_ix2 j
  refine (congrArg (k0_pay1 (F := Ideal) x0 x1 x2) hj).trans ?_
  rw [payload_apply]
  exact congrArg₂ (· * ·) (Finset.sum_congr rfl fun k _ => congrArg₂ (· * ·) (h0 k) (h1 k)) h2

theorem zeroOffsets : (![0, 0] : Fin 2 → Nat) = fun _ => 0 := funext fun a => by fin_cases a <;> rfl

/-- The printed index maps over the grid: the features' and the weights' windows move down the rows with the output's;
    every window sits at column block 0; the matrix's window does not move. -/
theorem indexMaps : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0 :=
  (by decide +kernel : ∀ t : Fin grid0.N, _)

/-- Every row block is some point's. -/
theorem rowBlocks : ∀ q0 : Fin 20, ∃ t : Fin cfg0.N, win0_3.index t = ![q0.val, 0] :=
  (by decide +kernel : ∀ q0 : Fin 20, ∃ t : Fin grid0.N, win0_3.index t = ![q0.val, 0])

section
variable (V : (c : Dev nD) → (b : Ref sig .tc) → Buf (Elt Ideal) ((c : Thread nD τ).loc b))

/-- WHAT POINT t WRITES BACK is block t of the whole-array function of the arrays as the region finds them. -/
theorem flushed_eq (c : Dev nD) (t : Fin cfg0.N) :
    (dat0 V c).flushed 3 t = ((cfg0.win 3).blk t).view.read (Elt Ideal)
      (scaledProduct (V c main_arg0) (V c main_arg2) (V c main_v15)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets,
    View.ld_unit_zero (S := S5000x1) zeroOffsets]
  obtain ⟨e0, e1, e2, e3, e4, e5, e6⟩ := indexMaps t
  refine funext fun (j : S5000x128.Idx) => ?_
  show k0_pay1 (F := Ideal) (iblk0 V c 0 t) (iblk0 V c 1 t) (iblk0 V c 2 t) j
    = scaledProduct (V c main_arg0) (V c main_arg2) (V c main_v15) (((cfg0.win 3).blk t).view.emb j)
  refine point (iblk0 V c 0 t) (iblk0 V c 1 t) (iblk0 V c 2 t) (V c main_arg0) (V c main_arg2) (V c main_v15) j
    (((cfg0.win 3).blk t).view.emb j) (fun k => ?_) (fun k => ?_) ?_
  · show V c main_arg0 (((cfg0.win 0).blk t).view.emb (ix2 ⟨(j 0).val, idx2_lt0 j⟩ k)) = V c main_arg0 _
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k ⟨(j 1).val, idx2_lt1 j⟩)) = V c main_arg2 _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  · show V c main_v15 (((cfg0.win 2).blk t).view.emb (ix2 ⟨(j 0).val, idx2_lt0 j⟩ (0 : Fin 1))) = V c main_v15 _
    refine congrArg (V c main_v15) (funext fun a => Fin.ext ?_)
    match a with
    | ⟨0, _⟩ =>
      show win0_2.index t (0 : Fin 2) * 5000 + 1 * (j 0).val = win0_3.index t (0 : Fin 2) * 5000 + 1 * (j 0).val
      omega
    | ⟨1, _⟩ =>
      show win0_2.index t (1 : Fin 2) * 1 + 1 * (0 : Fin 1).val = (0 : Fin 1).val
      omega

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- The 20 row blocks tile the array: row r is in the block of the point at row block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := rowBlocks ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY AFTER THE REGION: the whole-array function of the arrays as the region finds them. -/
theorem arr_eq (c : Dev nD) :
    (dat0 V c).arrAt 3 cfg0.N = scaledProduct (V c main_arg0) (V c main_arg2) (V c main_v15) :=
  (dat0 V c).arrAt_eq_of_cover 3 _ (fun t _ => flushed_eq V c t) cover

end

end Cert.KernelIdeal.Region0

end
-- ==== Proof.KernelRegion1.lean ====
/-
  Region 1 of the kernel program: a grid of 20 points, point t taking rows 5000·t … 5000·t + 4999 of the aggregate a and
  of the column of node weights d, and all of the bias row b (1 × 128) and of the 128 × 64 matrix W. The body scales row r
  of its block of a by the row's weight, adds the bias, takes the larger of that and 0, multiplies by W (the change of
  format before the product is the identity on exact values) and scales row r of the product by the row's weight once
  more. So the array the region leaves is ONE function of the arrays it reads, the same at every point:
      (n, f)  ↦  (∑ k, max (a(n, k) · d(n, 0) + b(0, k)) 0 · W(k, f)) · d(n, 0).
  Point t's write-back is block t of that function, the 20 blocks tile the array, hence the array after the region.
-/
import proofs.«108106_j13176959664143_2_alg».proof.Proof.Gen.KernelIdeal.Frame
import proofs.«108106_j13176959664143_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The rectified, weighted, biased aggregate times the matrix, scaled by the node's weight. -/
def fusedLayer (a : S100000x128.Idx → EReal) (d : S100000x1.Idx → EReal) (b : S1x128.Idx → EReal)
    (w : S128x64.Idx → EReal) : S100000x64.Idx → EReal :=
  fun i => (∑ k : Fin 128,
      max (a (ix2 ⟨(i 0).val, idx2_lt0 i⟩ k) * d (ix2 ⟨(i 0).val, idx2_lt0 i⟩ (0 : Fin 1)) + b (ix2 (0 : Fin 1) k))
        (Ideal.ofBits .f32 0x00000000#32)
      * w (ix2 k ⟨(i 1).val, idx2_lt1 i⟩))
    * d (ix2 ⟨(i 0).val, idx2_lt0 i⟩ (0 : Fin 1))

theorem fusedLayer_apply (a : S100000x128.Idx → EReal) (d : S100000x1.Idx → EReal) (b : S1x128.Idx → EReal)
    (w : S128x64.Idx → EReal) (n : Fin 100000) (f : Fin 64) :
    fusedLayer a d b w (ix2 n f)
      = (∑ k : Fin 128, max (a (ix2 n k) * d (ix2 n (0 : Fin 1)) + b (ix2 (0 : Fin 1) k)) (Ideal.ofBits .f32 0x00000000#32)
          * w (ix2 k f)) * d (ix2 n (0 : Fin 1)) := rfl

/-- The body's matrix product into the zero accumulator, at (p, q): the row of the left by the column of the right. -/
theorem product_apply (x : FVec Ideal S5000x128 .bf16) (w : FVec Ideal S128x64 .bf16) (p : Fin 5000) (q : Fin 64) :
    matmul (F := Ideal) dot_S5000x128_S128x64_S5000x64_1_0_0_1_n_n none x w (constant S5000x64 .f32 0x00000000#32) (ix2 p q)
      = ∑ k : Fin 128, x (ix2 p k) * w (ix2 k q) :=
  Cert.LibDense.matmul_zero_rc dot_S5000x128_S128x64_S5000x64_1_0_0_1_n_n rfl rfl
    (fun i c => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun i c => dot_S5000x128_S128x64_S5000x64_1_0_0_1_n_n.lhsIdx_val_of_single rfl i c)
    (fun i c => dot_S5000x128_S128x64_S5000x64_1_0_0_1_n_n.rhsIdx_val_of_single rfl i c)
    (fun i c => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    none x w p q

/-- The rectified operand of the product at (p, k): the block of a scaled by the row's weight, plus the bias, against 0. -/
theorem rectified_apply (x0 : Vec Ideal S5000x128 .f32) (x1 : Vec Ideal S5000x1 .f32) (x2 : Vec Ideal S1x128 .f32)
    (p : Fin 5000) (k : Fin 128) :
    maximumf (F := Ideal)
        (addf (mulf (shapeCast S5000x128 x0 shapeCasts_S5000x128_S5000x128)
            (broadcastTo S5000x128 (shapeCast S5000x1 x1 shapeCasts_S5000x1_S5000x1) broadcasts_S5000x1_S5000x128))
          (broadcastTo S5000x128 (shapeCast S1x128 x2 shapeCasts_S1x128_S1x128) broadcasts_S1x128_S5000x128))
        (broadcast S5000x128 (Scalar.ofBits (F := Ideal) .f32 0x00000000#32)) (ix2 p k)
      = max (x0 (ix2 p k) * x1 (ix2 p (0 : Fin 1)) + x2 (ix2 (0 : Fin 1) k)) (Ideal.ofBits .f32 0x00000000#32) := by
  show max ((shapeCast S5000x128 x0 shapeCasts_S5000x128_S5000x128 (ix2 p k))
        * (broadcastTo S5000x128 (shapeCast S5000x1 x1 shapeCasts_S5000x1_S5000x1) broadcasts_S5000x1_S5000x128 (ix2 p k))
      + (broadcastTo S5000x128 (shapeCast S1x128 x2 shapeCasts_S1x128_S1x128) broadcasts_S1x128_S5000x128 (ix2 p k)))
    (Ideal.ofBits .f32 0x00000000#32) = _
  rw [shapeCast_self, shapeCast_self, shapeCast_self, Cert.LibDense.broadcastTo_a1_ab_apply, broadcastTo_1b_ab_apply]

/-- The body's stored value at (p, q) of its block, from the blocks it loads. -/
theorem payload_apply (x0 : Vec Ideal S5000x128 .f32) (x1 : Vec Ideal S5000x1 .f32) (x2 : Vec Ideal S1x128 .f32)
    (x3 : Vec Ideal S128x64 .f32) (p : Fin 5000) (q : Fin 64) :
    k1_pay1 (F := Ideal) x0 x1 x2 x3 (ix2 p q)
      = (∑ k : Fin 128, max (x0 (ix2 p k) * x1 (ix2 p (0 : Fin 1)) + x2 (ix2 (0 : Fin 1) k)) (Ideal.ofBits .f32 0x00000000#32)
          * x3 (ix2 k q)) * x1 (ix2 p (0 : Fin 1)) := by
  unfold k1_pay1
  show (matmul (F := Ideal) dot_S5000x128_S128x64_S5000x64_1_0_0_1_n_n none
        (truncf .bf16 (maximumf (F := Ideal)
          (addf (mulf (shapeCast S5000x128 x0 shapeCasts_S5000x128_S5000x128)
              (broadcastTo S5000x128 (shapeCast S5000x1 x1 shapeCasts_S5000x1_S5000x1) broadcasts_S5000x1_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 x3 bitsLt_bf16_f32) (constant S5000x64 .f32 0x00000000#32) (ix2 p q))
      * (broadcastTo S5000x64 (shapeCast S5000x1 x1 shapeCasts_S5000x1_S5000x1) broadcasts_S5000x1_S5000x64 (ix2 p q)) = _
  rw [product_apply, Cert.LibDense.broadcastTo_a1_ab_apply]
  refine congrArg₂ (· * ·) (Finset.sum_congr rfl fun k _ => congrArg₂ (· * ·) ?_ rfl)
    (congrFun (shapeCast_self x1 shapeCasts_S5000x1_S5000x1) _)
  exact rectified_apply x0 x1 x2 p k

/-- One point: when the loaded blocks are the arrays A, D, B, W read where the output block's entry j sits (entry i of the
    array), the stored value at j is the whole-array function at i. -/
theorem point (x0 : Vec Ideal S5000x128 .f32) (x1 : Vec Ideal S5000x1 .f32) (x2 : Vec Ideal S1x128 .f32)
    (x3 : Vec Ideal S128x64 .f32)
    (A : S100000x128.Idx → EReal) (D : S100000x1.Idx → EReal) (B : S1x128.Idx → EReal) (W : S128x64.Idx → EReal)
    (j : S5000x64.Idx) (i : S100000x64.Idx)
    (h0 : ∀ k : Fin 128, x0 (ix2 ⟨(j 0).val, idx2_lt0 j⟩ k) = A (ix2 ⟨(i 0).val, idx2_lt0 i⟩ k))
    (h1 : x1 (ix2 ⟨(j 0).val, idx2_lt0 j⟩ (0 : Fin 1)) = D (ix2 ⟨(i 0).val, idx2_lt0 i⟩ (0 : Fin 1)))
    (h2 : ∀ k : Fin 128, x2 (ix2 (0 : Fin 1) k) = B (ix2 (0 : Fin 1) k))
    (h3 : ∀ k : Fin 128, x3 (ix2 k ⟨(j 1).val, idx2_lt1 j⟩) = W (ix2 k ⟨(i 1).val, idx2_lt1 i⟩)) :
    k1_pay1 (F := Ideal) x0 x1 x2 x3 j = fusedLayer A D B W i := by
  have hj : j = ix2 (⟨(j 0).val, idx2_lt0 j⟩ : Fin 5000) (⟨(j 1).val, idx2_lt1 j⟩ : Fin 64) := eq_ix2 j
  refine (congrArg (k1_pay1 (F := Ideal) x0 x1 x2 x3) hj).trans ?_
  rw [payload_apply]
  refine congrArg₂ (· * ·) (Finset.sum_congr rfl fun k _ => congrArg₂ (· * ·) ?_ (h3 k)) h1
  exact congrArg₂ max (congrArg₂ (· + ·) (congrArg₂ (· * ·) (h0 k) h1) (h2 k)) rfl

theorem zeroOffsets : (![0, 0] : Fin 2 → Nat) = fun _ => 0 := funext fun a => by fin_cases a <;> rfl

/-- The printed index maps over the grid: the aggregate's and the weights' windows move down the rows with the output's;
    every window sits at column block 0; the bias row's and the matrix's windows do not move. -/
theorem indexMaps : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0 :=
  (by decide +kernel : ∀ t : Fin grid1.N, _)

/-- Every row block is some point's. -/
theorem rowBlocks : ∀ q0 : Fin 20, ∃ t : Fin cfg1.N, win1_4.index t = ![q0.val, 0] :=
  (by decide +kernel : ∀ q0 : Fin 20, ∃ t : Fin grid1.N, win1_4.index t = ![q0.val, 0])

section
variable (V : (c : Dev nD) → (b : Ref sig .tc) → Buf (Elt Ideal) ((c : Thread nD τ).loc b))

/-- WHAT POINT t WRITES BACK is block t of the whole-array function of the arrays as the region finds them. -/
theorem flushed_eq (c : Dev nD) (t : Fin cfg1.N) :
    (dat1 V c).flushed 4 t = ((cfg1.win 4).blk t).view.read (Elt Ideal)
      (fusedLayer (V c main_v26) (V c main_v15) (V c main_v27) (V c main_arg4)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets, View.ld_unit_zero (S := S128x64) zeroOffsets]
  obtain ⟨e0, e1, e2, e3, e4, e5, e6, e7, e8⟩ := indexMaps t
  refine funext fun (j : S5000x64.Idx) => ?_
  show k1_pay1 (F := Ideal) (iblk1 V c 0 t) (iblk1 V c 1 t) (iblk1 V c 2 t) (iblk1 V c 3 t) j
    = fusedLayer (V c main_v26) (V c main_v15) (V c main_v27) (V c main_arg4) (((cfg1.win 4).blk t).view.emb j)
  refine point (iblk1 V c 0 t) (iblk1 V c 1 t) (iblk1 V c 2 t) (iblk1 V c 3 t) (V c main_v26) (V c main_v15)
    (V c main_v27) (V c main_arg4) j (((cfg1.win 4).blk t).view.emb j) (fun k => ?_) ?_ (fun k => ?_) (fun k => ?_)
  · show V c main_v26 (((cfg1.win 0).blk t).view.emb (ix2 ⟨(j 0).val, idx2_lt0 j⟩ k)) = V c main_v26 _
    refine congrArg (V c main_v26) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 128 + 1 * k.val = k.val
      omega
  · show V c main_v15 (((cfg1.win 1).blk t).view.emb (ix2 ⟨(j 0).val, idx2_lt0 j⟩ (0 : Fin 1))) = V c main_v15 _
    refine congrArg (V c main_v15) (funext fun a => Fin.ext ?_)
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 1 + 1 * (0 : Fin 1).val = (0 : Fin 1).val
      omega
  · show V c main_v27 (((cfg1.win 2).blk t).view.emb (ix2 (0 : Fin 1) k)) = V c main_v27 _
    refine congrArg (V c main_v27) (funext fun a => Fin.ext ?_)
    match a with
    | ⟨0, _⟩ =>
      show win1_2.index t (0 : Fin 2) * 1 + 1 * (0 : Fin 1).val = (0 : Fin 1).val
      omega
    | ⟨1, _⟩ =>
      show win1_2.index t (1 : Fin 2) * 128 + 1 * k.val = k.val
      omega
  · show V c main_arg4 (((cfg1.win 3).blk t).view.emb (ix2 k ⟨(j 1).val, idx2_lt1 j⟩)) = V c main_arg4 _
    refine congrArg (V c main_arg4) (funext fun a => Fin.ext ?_)
    match a with
    | ⟨0, _⟩ =>
      show win1_3.index t (0 : Fin 2) * 128 + 1 * k.val = k.val
      omega
    | ⟨1, _⟩ =>
      show win1_3.index t (1 : Fin 2) * 64 + 1 * (j 1).val = win1_4.index t (1 : Fin 2) * 64 + 1 * (j 1).val
      omega

/-- An index of the array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- The 20 row blocks tile the array: row r is in the block of the point at row block r / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := rowBlocks ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- THE ARRAY AFTER THE REGION: the whole-array function of the arrays as the region finds them. -/
theorem arr_eq (c : Dev nD) :
    (dat1 V c).arrAt 4 cfg1.N = fusedLayer (V c main_v26) (V c main_v15) (V c main_v27) (V c main_arg4) :=
  (dat1 V c).arrAt_eq_of_cover 4 _ (fun t _ => flushed_eq V c t) cover

end

end Cert.KernelIdeal.Region1

end
-- ==== Proof.KernelHost.lean ====
/-
  The host side of the kernel program, at the exact instance: the result buffer's last contents as ONE term of what the
  buffers hold when region 0 is entered (the contents after the first three stretches: the arguments, the edges' two
  arrays of node numbers, the column of node weights).

  Between the regions the program gathers, for every edge, the row of region 0's array at the node the edge reads, and
  sums the gathered rows into the node each edge is summed into; region 1 turns that aggregate into the second layer's
  scaled features; after it the same gather and sum run once more on 64 columns, and the result is the node's weight times
  the second aggregate plus the last bias. Each stretch's result is read off its operations (a stretch applies its
  operations to the contents before it); a buffer no operation of a stretch writes, and no region writes back, holds
  what it held.
-/
import proofs.«108106_j13176959664143_2_alg».proof.Proof.Gen.KernelIdeal.Frame
import proofs.«108106_j13176959664143_2_alg».proof.Proof.KernelRegion0
import proofs.«108106_j13176959664143_2_alg».proof.Proof.KernelRegion1
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

/-- The nodes the edges read, wrapped when negative, as one column. -/
def readRows (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The nodes the edges are summed into, as one column. -/
def sumRows (dst : IVec S1700000 32) : IVec S1700000x1 32 :=
  broadcastInDim S1700000x1 ![0] bcast_S1700000_S1700000x1_0 dst

/-- The aggregation on 128 columns: every edge's gathered row summed into the edge's receiving node, from zero. -/
def aggregate128 (src dst : IVec S1700000 32) (h : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32)) (sumRows dst)
    (Host.gather gather_S100000x128_S1700000x1_S1700000x128_1_0_n_n_0_1_1128 h (readRows src))

/-- The aggregation on 64 columns. -/
def aggregate64 (src dst : IVec S1700000 32) (h : FVec Ideal S100000x64 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32)) (sumRows dst)
    (Host.gather gather_S100000x64_S1700000x1_S1700000x64_1_0_n_n_0_1_164 h (readRows src))

/-- The last lines: the node's weight times the aggregate, plus the bias along the rows. -/
def epilogue (dinv2 : FVec Ideal S100000x1 .f32) (a : FVec Ideal S100000x64 .f32) (b2 : FVec Ideal S64 .f32) :
    FVec Ideal S100000x64 .f32 :=
  addf (F := Ideal) (mulf (F := Ideal) (broadcastInDim S100000x64 ![0, 1] bcast_S100000x1_S100000x64_0_1 dinv2) a)
    (broadcastInDim S100000x64 ![0, 1] bcast_S1x64_S100000x64_0_1 (broadcastInDim S1x64 ![1] bcast_S64_S1x64_1 b2))

/-! ## The stretches over any contents before them -/

section Stretches
variable (Vl : Valuation τ sig (Elt Ideal))

set_option maxHeartbeats 8000000 in
/-- The last stretch's result. -/
theorem tail_of : StableHlo.after hostOps2 Vl (Proc.devRef .tc main_v43)
    = epilogue (Vl (Proc.devRef .tc main_v15))
        (aggregate64 (Vl (Proc.devRef .tc main_v3)) (Vl (Proc.devRef .tc main_v6)) (Vl (Proc.devRef .tc main_v28)))
        (Vl (Proc.devRef .tc main_arg5)) := by
  after_results_simp <;> rfl

set_option maxHeartbeats 8000000 in
/-- The middle stretch's aggregate. -/
theorem mid_of : StableHlo.after hostOps1 Vl (Proc.devRef .tc main_v26)
    = aggregate128 (Vl (Proc.devRef .tc main_v3)) (Vl (Proc.devRef .tc main_v6)) (Vl (Proc.devRef .tc main_v16)) := by
  after_results_simp <;> rfl

set_option maxHeartbeats 8000000 in
/-- The middle stretch's bias row. -/
theorem bias_of : StableHlo.after hostOps1 Vl (Proc.devRef .tc main_v27)
    = shapeCast S1x128 (Vl (Proc.devRef .tc main_arg3)) shapeCasts_S128_S1x128 := by
  after_results_simp <;> rfl

set_option maxHeartbeats 8000000 in
/-- The middle stretch writes none of these five buffers. -/
theorem mid_keeps : StableHlo.after hostOps1 Vl (Proc.devRef .tc main_v15) = Vl (Proc.devRef .tc main_v15)
    ∧ StableHlo.after hostOps1 Vl (Proc.devRef .tc main_v3) = Vl (Proc.devRef .tc main_v3)
    ∧ StableHlo.after hostOps1 Vl (Proc.devRef .tc main_v6) = Vl (Proc.devRef .tc main_v6)
    ∧ StableHlo.after hostOps1 Vl (Proc.devRef .tc main_arg4) = Vl (Proc.devRef .tc main_arg4)
    ∧ StableHlo.after hostOps1 Vl (Proc.devRef .tc main_arg5) = Vl (Proc.devRef .tc main_arg5) := by
  refine ⟨?_, ?_, ?_, ?_, ?_⟩ <;> (after_results_simp <;> rfl)

end Stretches

variable (m : (ℓ : Loc nD τ sig) → Buf (Elt Ideal) ℓ) (ρ : Dev nD → PrngReg) (c : Dev nD)

/-! ## The last stretch -/

theorem tail_eq : W7 m ρ c (Proc.devRef .tc main_v43)
    = epilogue (W6 m ρ c (Proc.devRef .tc main_v15))
        (aggregate64 (W6 m ρ c (Proc.devRef .tc main_v3)) (W6 m ρ c (Proc.devRef .tc main_v6))
          (W6 m ρ c (Proc.devRef .tc main_v28)))
        (W6 m ρ c (Proc.devRef .tc main_arg5)) :=
  tail_of (W6 m ρ c)

/-! ## Region 1's exit: its output array is its whole-array function, the other buffers stand -/

theorem W6_out : W6 m ρ c (Proc.devRef .tc main_v28)
    = Region1.fusedLayer (W5 m ρ c (Proc.devRef .tc main_v26)) (W5 m ρ c (Proc.devRef .tc main_v15))
        (W5 m ρ c (Proc.devRef .tc main_v27)) (W5 m ρ c (Proc.devRef .tc main_arg4)) :=
  (W6_arr m ρ c 4).trans (Region1.arr_eq (V5 m ρ) c)

theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem W6_v3 : W6 m ρ c (Proc.devRef .tc main_v3) = W5 m ρ c (Proc.devRef .tc main_v3) :=
  W6_of_ne m ρ c main_v3 (by decide)
theorem W6_v6 : W6 m ρ c (Proc.devRef .tc main_v6) = W5 m ρ c (Proc.devRef .tc main_v6) :=
  W6_of_ne m ρ c main_v6 (by decide)
theorem W6_arg5 : W6 m ρ c (Proc.devRef .tc main_arg5) = W5 m ρ c (Proc.devRef .tc main_arg5) :=
  W6_of_ne m ρ c main_arg5 (by decide)

/-! ## The middle stretch -/

theorem mid_eq : W5 m ρ c (Proc.devRef .tc main_v26)
    = aggregate128 (W4 m ρ c (Proc.devRef .tc main_v3)) (W4 m ρ c (Proc.devRef .tc main_v6))
        (W4 m ρ c (Proc.devRef .tc main_v16)) :=
  mid_of (W4 m ρ c)

theorem W5_v27 : W5 m ρ c (Proc.devRef .tc main_v27)
    = shapeCast S1x128 (W4 m ρ c (Proc.devRef .tc main_arg3)) shapeCasts_S128_S1x128 :=
  bias_of (W4 m ρ c)

theorem W5_v15 : W5 m ρ c (Proc.devRef .tc main_v15) = W4 m ρ c (Proc.devRef .tc main_v15) :=
  (mid_keeps (W4 m ρ c)).1
theorem W5_v3 : W5 m ρ c (Proc.devRef .tc main_v3) = W4 m ρ c (Proc.devRef .tc main_v3) :=
  (mid_keeps (W4 m ρ c)).2.1
theorem W5_v6 : W5 m ρ c (Proc.devRef .tc main_v6) = W4 m ρ c (Proc.devRef .tc main_v6) :=
  (mid_keeps (W4 m ρ c)).2.2.1
theorem W5_arg4 : W5 m ρ c (Proc.devRef .tc main_arg4) = W4 m ρ c (Proc.devRef .tc main_arg4) :=
  (mid_keeps (W4 m ρ c)).2.2.2.1
theorem W5_arg5 : W5 m ρ c (Proc.devRef .tc main_arg5) = W4 m ρ c (Proc.devRef .tc main_arg5) :=
  (mid_keeps (W4 m ρ c)).2.2.2.2

/-! ## Region 0's exit -/

theorem W4_out : W4 m ρ c (Proc.devRef .tc main_v16)
    = Region0.scaledProduct (W3 m ρ c (Proc.devRef .tc main_arg0)) (W3 m ρ c (Proc.devRef .tc main_arg2))
        (W3 m ρ c (Proc.devRef .tc main_v15)) :=
  (W4_arr m ρ c 3).trans (Region0.arr_eq (V3 m ρ) c)

theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_v3 : W4 m ρ c (Proc.devRef .tc main_v3) = W3 m ρ c (Proc.devRef .tc main_v3) :=
  W4_of_ne m ρ c main_v3 (by decide)
theorem W4_v6 : W4 m ρ c (Proc.devRef .tc main_v6) = W3 m ρ c (Proc.devRef .tc main_v6) :=
  W4_of_ne m ρ c main_v6 (by decide)
theorem W4_arg3 : W4 m ρ c (Proc.devRef .tc main_arg3) = W3 m ρ c (Proc.devRef .tc main_arg3) :=
  W4_of_ne m ρ c main_arg3 (by decide)
theorem W4_arg4 : W4 m ρ c (Proc.devRef .tc main_arg4) = W3 m ρ c (Proc.devRef .tc main_arg4) :=
  W4_of_ne m ρ c main_arg4 (by decide)
theorem W4_arg5 : W4 m ρ c (Proc.devRef .tc main_arg5) = W3 m ρ c (Proc.devRef .tc main_arg5) :=
  W4_of_ne m ρ c main_arg5 (by decide)

/-! ## The result, from region 0's entry -/

/-- The result buffer's last contents as one term of the contents at region 0's entry. -/
theorem result_eq : W7 m ρ c (Proc.devRef .tc main_v43)
    = epilogue (W3 m ρ c (Proc.devRef .tc main_v15))
        (aggregate64 (W3 m ρ c (Proc.devRef .tc main_v3)) (W3 m ρ c (Proc.devRef .tc main_v6))
          (Region1.fusedLayer
            (aggregate128 (W3 m ρ c (Proc.devRef .tc main_v3)) (W3 m ρ c (Proc.devRef .tc main_v6))
              (Region0.scaledProduct (W3 m ρ c (Proc.devRef .tc main_arg0)) (W3 m ρ c (Proc.devRef .tc main_arg2))
                (W3 m ρ c (Proc.devRef .tc main_v15))))
            (W3 m ρ c (Proc.devRef .tc main_v15))
            (shapeCast S1x128 (W3 m ρ c (Proc.devRef .tc main_arg3)) shapeCasts_S128_S1x128)
            (W3 m ρ c (Proc.devRef .tc main_arg4))))
        (W3 m ρ c (Proc.devRef .tc main_arg5)) := by
  rw [tail_eq, W6_out, W6_v15, W6_v3, W6_v6, W6_arg5, mid_eq, W5_v27, W5_v15, W5_v3, W5_v6, W5_arg4, W5_arg5,
    W4_out, W4_v15, W4_v3, W4_v6, W4_arg3, W4_arg4, W4_arg5]

end Cert.KernelIdeal.HostValue

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.LibRowScatter.lean ====
/-
  General facts, at the exact instance (floats as extended reals), about a scatter-add of the ROWS of an [E, F] array
  of updates into an [N, F] array, the row each update row goes to read off an [E, 1] array of signed integers (what
  a segment sum over a list of receivers lowers to): read at (n, g), the result is the operand's entry plus the sum,
  over the update rows e whose integer is n, of the update's entry (e, g); an update row whose integer is negative or
  not below N contributes nothing. Then the law that lets such a sum pass through a matrix product with real
  entries: the rows' sum of (a term plus a row-by-column product) is the rows' sum of the terms plus the
  product of the rows' sum.
-/
import Idealize.ShloMosaic.PureOps.Ideal
import Idealize.ShloMosaic.PureOps.Ideal.Laws
import Idealize.ShloMosaic.PureOps.Contract
import Idealize.ShloMosaic.Lib.ValueIdx

noncomputable section

namespace Cert.LibRowScatter

open Idealize.ShloMosaic Idealize.ShloMosaic.ValueIdx

variable {N E F : Nat}

/-- The dimension numbers of a scatter of whole rows: the updates' second axis is the window, the operand's first
    axis is the one the integer addresses, and each update row has one integer. -/
abbrev rowDims (N E F : Nat) (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF ⟨2, ![N, F]⟩ ⟨2, ![E, 1]⟩ ⟨2, ![E, F]⟩ [1] [0] [0] 1)

/-- On the addressed axis the window starts at update row e's integer, read signed. -/
theorem start_row {w : Nat} (idx : IVec ⟨2, ![E, 1]⟩ w) (e : Fin E) (f : Fin F) :
    (rowDims N E F wf).start (ix2 e f) idx 0 = (idx (ix2 e (0 : Fin 1))).toInt := by
  unfold ScatterDims.start
  rw [dif_pos (show (0 : Fin 2) ∈ (rowDims N E F wf).scatterDimsToOperandDims from List.mem_singleton.mpr rfl)]
  have hsi : (rowDims N E F wf).siIdx (ix2 e f) ⟨List.idxOf (0 : Fin 2) (rowDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window's axis it starts at 0. -/
theorem start_col {w : Nat} (idx : IVec ⟨2, ![E, 1]⟩ w) (j : (⟨2, ![E, F]⟩ : Shape).Idx) :
    (rowDims N E F wf).start j idx 1 = 0 := by
  unfold ScatterDims.start
  rw [dif_neg (show ¬ (1 : Fin 2) ∈ ([0] : List (Fin 2)) by decide)]

/-- The window has no extent on the addressed axis … -/
theorem window_row (j : (⟨2, ![E, F]⟩ : Shape).Idx) : (rowDims N E F wf).window j 0 = 0 := by
  unfold ScatterDims.window
  have h : ¬ (0 : Fin 2) ∈ (rowDims N E F wf).sKept := by
    show ¬ (0 : Fin 2) ∈ ([1] : List (Fin 2))
    decide
  rw [dif_neg h]

/-- … and is the update's column on the other. -/
theorem window_col (e : Fin E) (f : Fin F) : (rowDims N E F wf).window (ix2 e f) 1 = f.val := by
  unfold ScatterDims.window
  have h : (1 : Fin 2) ∈ (rowDims N E F wf).sKept := by
    show (1 : Fin 2) ∈ ([1] : List (Fin 2))
    decide
  rw [dif_pos h]
  rfl

/-- WHERE AN UPDATE ENTRY LANDS: entry (e, f) lands on (n, g) exactly when row e's integer is n and f is g. -/
theorem lands_iff {w : Nat} (idx : IVec ⟨2, ![E, 1]⟩ w) (e : Fin E) (f : Fin F) (n : Fin N) (g : Fin F) :
    (rowDims N E F wf).resultIdx? (ix2 e f) idx = some (ix2 n g)
      ↔ (idx (ix2 e (0 : Fin 1))).toInt = (n.val : Int) ∧ f = g := by
  have h0 : (rowDims N E F wf).start (ix2 e f) idx 0 + ((rowDims N E F wf).window (ix2 e f) 0 : Int)
      = (idx (ix2 e (0 : Fin 1))).toInt := by
    rw [start_row, window_row]; simp
  have h1 : (rowDims N E F wf).start (ix2 e f) idx 1 + ((rowDims N E F wf).window (ix2 e f) 1 : Int) = (f.val : Int) := by
    rw [start_col, window_col]; simp
  unfold ScatterDims.resultIdx?
  split
  · rename_i h
    rw [Option.some.injEq]
    constructor
    · intro hfn
      have e0 := congrArg (fun i => (i 0).val) hfn
      have e1 := congrArg (fun i => (i 1).val) hfn
      have b0 := (h 0).1
      simp only [h0] at e0 b0
      simp only [h1] at e1
      refine ⟨?_, Fin.ext ?_⟩
      · have : ((idx (ix2 e (0 : Fin 1))).toInt.toNat : Int) = (n.val : Int) := by exact_mod_cast e0
        omega
      · have : ((f.val : Int)).toNat = g.val := e1
        omega
    · rintro ⟨hn, rfl⟩
      funext a
      refine Fin.ext ?_
      match a with
      | ⟨0, _⟩ =>
        show ((rowDims N E F wf).start (ix2 e f) idx 0 + ((rowDims N E F wf).window (ix2 e f) 0 : Int)).toNat = n.val
        rw [h0, hn]; simp
      | ⟨1, _⟩ =>
        show ((rowDims N E F wf).start (ix2 e f) idx 1 + ((rowDims N E F wf).window (ix2 e f) 1 : Int)).toNat = f.val
        rw [h1]; simp
  · rename_i h
    constructor
    · intro hc; exact absurd hc (by simp)
    · rintro ⟨hn, rfl⟩
      exfalso
      apply h
      intro a
      match a with
      | ⟨0, _⟩ =>
        show 0 ≤ (rowDims N E F wf).start (ix2 e f) idx 0 + ((rowDims N E F wf).window (ix2 e f) 0 : Int)
          ∧ (rowDims N E F wf).start (ix2 e f) idx 0 + ((rowDims N E F wf).window (ix2 e f) 0 : Int) < (N : Int)
        rw [h0, hn]
        have := n.isLt
        omega
      | ⟨1, _⟩ =>
        show 0 ≤ (rowDims N E F wf).start (ix2 e f) idx 1 + ((rowDims N E F wf).window (ix2 e f) 1 : Int)
          ∧ (rowDims N E F wf).start (ix2 e f) idx 1 + ((rowDims N E F wf).window (ix2 e f) 1 : Int) < (F : Int)
        rw [h1]
        have := f.isLt
        omega

/-- The update rows that land on operand row n: those whose integer, read signed, is n. -/
def rowsOn {w : Nat} (idx : IVec ⟨2, ![E, 1]⟩ w) (n : Fin N) : Finset (Fin E) :=
  Finset.univ.filter fun e => (idx (ix2 e (0 : Fin 1))).toInt = (n.val : Int)

/-- THE SCATTER-ADD OF ROWS READ AT (n, g): the operand's entry plus the sum of the entries (e, g) of the update rows
    e that land on row n. -/
theorem scatterAdd_rows_apply {φ : FTy} {w : Nat} (x : FVec Ideal ⟨2, ![N, F]⟩ φ) (idx : IVec ⟨2, ![E, 1]⟩ w)
    (upd : FVec Ideal ⟨2, ![E, F]⟩ φ) (n : Fin N) (g : Fin F) :
    Host.scatterAdd (F := Ideal) (rowDims N E F wf) x idx upd (ix2 n g)
      = x (ix2 n g) + ∑ e ∈ rowsOn idx n, upd (ix2 e g) := by
  show x (ix2 n g) + ∑ j ∈ Finset.univ.filter (fun j => (rowDims N E F wf).resultIdx? j idx = some (ix2 n g)), upd j = _
  congr 1
  unfold rowsOn
  rw [Finset.sum_filter, sum_idx2, Finset.sum_filter]
  refine Finset.sum_congr rfl fun e _ => ?_
  simp only [lands_iff wf idx e _ n g]
  by_cases hL : (idx (ix2 e (0 : Fin 1))).toInt = (n.val : Int)
  · simp only [hL, true_and, if_true]
    rw [Finset.sum_ite_eq' Finset.univ g (fun f => upd (ix2 e f))]
    simp
  · simp only [hL, false_and, if_false]
    exact Finset.sum_const_zero

/-! ## The law that passes a sum of rows through a product with real entries -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries times a real is the sum of the products. -/
theorem sum_mul_real {ι : Type*} (s : Finset ι) (f : ι → ℝ) (v : ℝ) :
    (∑ i ∈ s, (f i : EReal)) * (v : EReal) = ∑ i ∈ s, (f i : EReal) * (v : EReal) := by
  have h : ∀ i, (f i : EReal) * (v : EReal) = ((f i * v : ℝ) : EReal) := fun i => (EReal.coe_mul _ _).symm
  simp only [h]
  rw [← coe_sum, ← coe_sum, ← EReal.coe_mul, Finset.sum_mul]

/-- Over any finite set R of rows: the sum of (t e + ∑ k, a e k · v k) is the sum of the t e plus ∑ k, (the sum of
    the a e k) · v k, when a and v are real (t may be anything: only sums are regrouped on its side). -/
theorem sum_rows_through_product {ι κ : Type*} [Fintype κ] (R : Finset ι) (t : ι → EReal) (a : ι → κ → EReal)
    (v : κ → EReal) (ha : ∀ e k, ∃ r : ℝ, a e k = (r : EReal)) (hv : ∀ k, ∃ r : ℝ, v k = (r : EReal)) :
    ∑ e ∈ R, (t e + ∑ k, a e k * v k) = ∑ e ∈ R, t e + ∑ k, (∑ e ∈ R, a e k) * v k := by
  choose ra hra using ha
  choose rv hrv using hv
  rw [Finset.sum_add_distrib]
  congr 1
  rw [Finset.sum_comm]
  refine Finset.sum_congr rfl fun k _ => ?_
  simp only [hra, hrv]
  exact (sum_mul_real R (fun e => ra e k) (rv k)).symm

end Cert.LibRowScatter

end
-- ==== Proof.GcnAlgebra.lean ====
/-
  The mathematics of the certificate, over plain finite index types, with no program in sight.

  A graph has N nodes and E edges; edge e reads node (g e) and is summed into every node n with e ∈ R n; every node has a
  weight dv n (the inverse square root of its degree). One layer of the normalised aggregation, as the reference writes it,
  sends a node feature array H to
      n, f  ↦  ∑ e ∈ R n, H (g e) f · (dv (g e) · dv (g' e)),
  where g' e is the node edge e is summed into, so g' e = n for e ∈ R n. The kernel scales each node's features by its
  own weight BEFORE the edges read them and scales the sum by the receiving node's weight AFTER:
      n, f  ↦  (∑ e ∈ R n, (H (g e) f · dv (g e))) · dv n.
  The two agree when the entries are real numbers: a real factor passes through a finite sum of reals (on the extended
  reals it need not at infinities), and the product is associative. Two such layers with a bias and a rectifier between
  them are the two programs' results.
-/
import proofs.«108106_j13176959664143_2_alg».proof.Proof.LibRealEntries
import proofs.«108106_j13176959664143_2_alg».proof.Proof.LibRowScatter

noncomputable section

namespace Cert.Gcn

open Cert.Lib.RealEntries

/-- The larger of two real values is real. -/
theorem isR_max {x y : EReal} (hx : IsR x) (hy : IsR y) : IsR (max x y) := by
  rcases max_choice x y with h | h
  · rw [h]; exact hx
  · rw [h]; exact hy

/-- A real factor passes through a finite sum of real terms. -/
theorem sum_mul_isR {ι : Type*} (R : Finset ι) (a : ι → EReal) (v : EReal) (ha : ∀ e, IsR (a e)) (hv : IsR v) :
    (∑ e ∈ R, a e) * v = ∑ e ∈ R, a e * v := by
  choose ra hra using ha
  obtain ⟨rv, rfl⟩ := hv
  simp only [hra]
  exact Cert.LibRowScatter.sum_mul_real R ra rv

variable {N E : Nat}

section Layer

variable (g g' : Fin E → Fin N) (R : Fin N → Finset (Fin E)) (dv : Fin N → EReal)

/-- The plain aggregate: node n's sum, over the edges summed into it, of the feature array at the node the edge reads. -/
def kAgg {F : Nat} (P : Fin N → Fin F → EReal) (n : Fin N) (f : Fin F) : EReal :=
  ∑ e ∈ R n, P (g e) f

/-- The normalised aggregate as the reference writes it: every edge's term carries both ends' weights. -/
def rAgg {F : Nat} (H : Fin N → Fin F → EReal) (n : Fin N) (f : Fin F) : EReal :=
  ∑ e ∈ R n, H (g e) f * (dv (g e) * dv (g' e))

/-- ONE LAYER: weighting every edge by both ends is weighting every node before the edges read it and the sum after. -/
theorem rAgg_eq {F : Nat} (hg' : ∀ n, ∀ e ∈ R n, g' e = n) (hd : ∀ n, IsR (dv n))
    (H : Fin N → Fin F → EReal) (hH : ∀ n f, IsR (H n f)) (n : Fin N) (f : Fin F) :
    rAgg g g' R dv H n f = kAgg g R (fun n f => H n f * dv n) n f * dv n := by
  unfold rAgg kAgg
  rw [sum_mul_isR (R n) (fun e => H (g e) f * dv (g e)) (dv n) (fun e => (hH _ _).mul (hd _)) (hd n)]
  refine Finset.sum_congr rfl fun e he => ?_
  rw [hg' n e he, mul_assoc]

/-- A plain aggregate of real entries is real. -/
theorem isR_kAgg {F : Nat} (P : Fin N → Fin F → EReal) (hP : ∀ n f, IsR (P n f)) (n : Fin N) (f : Fin F) :
    IsR (kAgg g R P n f) :=
  isR_sum _ _ fun e _ => hP _ _

variable (X : Fin N → Fin 128 → EReal) (W1 : Fin 128 → Fin 128 → EReal) (b1 : Fin 128 → EReal)
  (W2 : Fin 128 → Fin 64 → EReal) (b2 : Fin 64 → EReal)

/-- The first layer's features scaled by the node's weight: what the edges of the kernel's first aggregation read. -/
def pre1 (n : Fin N) (k : Fin 128) : EReal := (∑ j : Fin 128, X n j * W1 j k) * dv n

/-- The rectified first layer as the kernel forms it: the aggregate scaled by the node's weight, plus the bias, against 0. -/
def hidK (n : Fin N) (k : Fin 128) : EReal := max (kAgg g R (pre1 dv X W1) n k * dv n + b1 k) 0

/-- The second layer's features scaled by the node's weight: what the edges of the kernel's second aggregation read. -/
def pre2 (n : Fin N) (f : Fin 64) : EReal := (∑ k : Fin 128, hidK g R dv X W1 b1 n k * W2 k f) * dv n

/-- THE KERNEL'S RESULT. -/
def kOut (n : Fin N) (f : Fin 64) : EReal := dv n * kAgg g R (pre2 g R dv X W1 b1 W2) n f + b2 f

/-- The first layer's features, unscaled. -/
def lin1 (n : Fin N) (k : Fin 128) : EReal := ∑ j : Fin 128, X n j * W1 j k

/-- The rectified first layer as the reference forms it. -/
def hidR (n : Fin N) (k : Fin 128) : EReal := max (rAgg g g' R dv (lin1 X W1) n k + b1 k) 0

/-- The second layer's features, unscaled. -/
def lin2 (n : Fin N) (f : Fin 64) : EReal := ∑ k : Fin 128, hidR g g' R dv X W1 b1 n k * W2 k f

/-- THE REFERENCE'S RESULT. -/
def rOut (n : Fin N) (f : Fin 64) : EReal := rAgg g g' R dv (lin2 g g' R dv X W1 b1 W2) n f + b2 f

variable (hg' : ∀ n, ∀ e ∈ R n, g' e = n) (hd : ∀ n, IsR (dv n))
  (hX : ∀ n j, IsR (X n j)) (hW1 : ∀ j k, IsR (W1 j k)) (hb1 : ∀ k, IsR (b1 k)) (hW2 : ∀ k f, IsR (W2 k f))

include hX hW1 in
theorem isR_lin1 (n : Fin N) (k : Fin 128) : IsR (lin1 X W1 n k) :=
  isR_sum _ _ fun j _ => (hX n j).mul (hW1 j k)

include hg' hd hX hW1 in
/-- The two rectified first layers are one array. -/
theorem hidR_eq (n : Fin N) (k : Fin 128) : hidR g g' R dv X W1 b1 n k = hidK g R dv X W1 b1 n k := by
  unfold hidR hidK
  rw [rAgg_eq g g' R dv hg' hd (lin1 X W1) (isR_lin1 X W1 hX hW1) n k]
  rfl

include hd hX hW1 hb1 in
theorem isR_hidK (n : Fin N) (k : Fin 128) : IsR (hidK g R dv X W1 b1 n k) := by
  unfold hidK
  refine isR_max (((isR_kAgg g R _ (fun n k => ?_) n k).mul (hd n)).add (hb1 k)) isR_zero
  exact (isR_lin1 X W1 hX hW1 n k).mul (hd n)

include hg' hd hX hW1 hb1 hW2 in
/-- THE TWO RESULTS ARE ONE, for real entries and edges whose receiving node is the one they are summed into. -/
theorem rOut_eq_kOut (n : Fin N) (f : Fin 64) :
    rOut g g' R dv X W1 b1 W2 b2 n f = kOut g R dv X W1 b1 W2 b2 n f := by
  unfold rOut kOut
  have hl : lin2 g g' R dv X W1 b1 W2 = fun n f => ∑ k : Fin 128, hidK g R dv X W1 b1 n k * W2 k f := by
    funext n f
    unfold lin2
    exact Finset.sum_congr rfl fun k _ => by rw [hidR_eq g g' R dv X W1 b1 hg' hd hX hW1 n k]
  rw [hl, rAgg_eq g g' R dv hg' hd _ (fun n f => isR_sum _ _ fun k _ =>
    (isR_hidK g R dv X W1 b1 hd hX hW1 hb1 n k).mul (hW2 k f)) n f, mul_comm]
  rfl

end Layer

end Cert.Gcn

end
-- ==== Proof.LibGatherRows.lean ====
/-
  General facts about a gather of whole ROWS of an [N, F] array, and of single entries of an [N] vector, the row each
  result row e reads taken from an [E, 1] array of signed integers (what indexing an array's first axis by a list of
  node numbers lowers to): read at (e, f), the result is the operand's entry (rowOf e, f), where rowOf e is row e's
  integer read signed and clamped into [0, N − 1], as the gather clamps every start index. The row function is the same
  for the matrix and for the vector: it depends on the integers only.
-/
import Idealize.ShloMosaic.PureOps.Ideal
import Idealize.ShloMosaic.PureOps.Contract
import Idealize.ShloMosaic.Lib.ValueIdx

noncomputable section

namespace Cert.LibGatherRows

open Idealize.ShloMosaic Idealize.ShloMosaic.ValueIdx

variable {α : Type} {N E F : Nat}

/-- The row that result row e reads: its integer, read signed, clamped into [0, N − 1]. -/
def rowOf (hN : 0 < N) {w : Nat} (idx : IVec ⟨2, ![E, 1]⟩ w) (e : Fin E) : Fin N :=
  ⟨min (idx (ix2 e (0 : Fin 1))).toInt.toNat (N - 1), by omega⟩

/-- An integer that is a node number is its own clamped row. -/
theorem rowOf_of_toInt (hN : 0 < N) {w : Nat} (idx : IVec ⟨2, ![E, 1]⟩ w) (e : Fin E) (n : Fin N)
    (h : (idx (ix2 e (0 : Fin 1))).toInt = (n.val : Int)) : rowOf hN idx e = n := by
  apply Fin.ext
  show min (idx (ix2 e (0 : Fin 1))).toInt.toNat (N - 1) = n.val
  rw [h]
  have := n.isLt
  simp only [Int.toNat_natCast]
  omega

/-! ## Rows of a matrix -/

/-- The dimension numbers of a gather of whole rows: the result's second axis is the row's, the operand's first axis is
    the one the integer addresses and is collapsed, each result row has one integer. -/
abbrev rowDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- THE GATHER OF ROWS READ AT (e, f): the operand at (rowOf e, f). -/
theorem gather_rows_apply (hN : 0 < N) {w : Nat}
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowDims N E F wf) x idx (ix2 e f) = x (ix2 (rowOf hN idx e) f) := by
  unfold Host.gather
  congr 1
  funext a
  refine Fin.ext ?_
  match a with
  | ⟨0, _⟩ =>
    show (rowDims N E F wf).start (ix2 e f) idx 0 + (rowDims N E F wf).batchCoord (ix2 e f) 0
      + (rowDims N E F wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E F wf).startIndexMap from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1
      + (rowDims N E F wf).offCoord (ix2 e f) 1 = f.val
    rw [GatherDims.batchCoord_eq_zero _ _ _ List.not_mem_nil]
    unfold GatherDims.start
    rw [dif_neg (show ¬ (1 : Fin 2) ∈ ([0] : List (Fin 2)) by decide)]
    unfold GatherDims.offCoord
    have h : (1 : Fin 2) ∈ (rowDims N E F wf).sKept := by
      show (1 : Fin 2) ∈ ([1] : List (Fin 2))
      decide
    rw [dif_pos h]
    simp only [Nat.zero_add]
    rfl

/-! ## Entries of a vector -/

/-- The dimension numbers of a gather of single entries of a vector: no result axis is the slice's, the operand's one
    axis is addressed and collapsed, each result entry has one integer. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES READ AT e: the operand at rowOf e. -/
theorem gather_vec_apply (hN : 0 < N) {w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = min (idx (ix2 e (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows

end
-- ==== Proof.GcnIndex.lean ====
/-
  The node numbers of the edges, read at an edge, with no program in sight. Both programs hold the E = 1700000 edges' node
  numbers as 32-bit signed integers in an [E] array v; an edge's number is used in two ways:
    * as the address of a SUM (a scatter-add of rows): the [E] array is made one column [E, 1], and update row e is summed
      into row n exactly when v(e), read signed, is n;
    * as the address of a READ (a gather of rows): a negative number is first WRAPPED by adding N = 100000 (indexing from
      the end), the result made one column, and row e reads the row whose number is the wrapped value clamped into
      [0, N − 1].
  So for an edge that is summed into node n the number is n itself, it is not negative, wrapping leaves it, clamping
  leaves it, and the row it reads through that same array is row n. That is the one fact the algebra needs of the
  receiving ends. Also here: a scatter-add of rows into an array of zero words is the plain sum over the rows that land.
-/
import proofs.«108106_j13176959664143_2_alg».proof.Proof.LibGatherRows
import proofs.«108106_j13176959664143_2_alg».proof.Proof.LibRowScatter
import Idealize.ShloMosaic.Lib.Pipeline.Value

noncomputable section

namespace Cert.GcnIndex

open Idealize.ShloMosaic Idealize.ShloMosaic.ValueIdx Cert.LibGatherRows Cert.LibRowScatter

/-- The edges' axis, that axis as one column, and the scalar shape. -/
abbrev SE : Shape := ⟨1, ![1700000]⟩
abbrev SE1 : Shape := ⟨2, ![1700000, 1]⟩
abbrev S0 : Shape := ⟨0, ![]⟩

/-- An [E] array made one column reads, at (e, 0), the array at e. -/
theorem column_apply {α : Type} (h : SE.BroadcastsInDim SE1 ![0]) (v : SE.Idx → α) (e : Fin 1700000) (u : Fin 1) :
    broadcastInDim SE1 ![0] h v (ix2 e u) = v (ix1 e) :=
  broadcastInDim_apply _ h v (ix2 e u) (ix1 e) (fun a => match a with
    | ⟨0, _⟩ => by show e.val = if (1700000 : Nat) = 1 then 0 else e.val; rw [if_neg (by decide)])

/-- The node numbers wrapped: a negative one has N = 100000 added, the others stand. -/
def wrapped (h0 : S0.BroadcastsInDim SE ![]) (v : IVec SE 32) : IVec SE 32 :=
  select (cmpi .slt v (broadcastInDim SE ![] h0 (constantI S0 32 0#32)))
    (addi v (broadcastInDim SE ![] h0 (constantI S0 32 100000#32))) v

/-- A number that is not negative stands. -/
theorem wrapped_of_nonneg (h0 : S0.BroadcastsInDim SE ![]) (v : IVec SE 32) (e : Fin 1700000)
    (hv : 0 ≤ (v (ix1 e)).toInt) : wrapped h0 v (ix1 e) = v (ix1 e) := by
  have hs : BitVec.slt (v (ix1 e)) 0#32 = false := by
    show decide ((v (ix1 e)).toInt < (0#32 : BitVec 32).toInt) = false
    rw [decide_eq_false_iff_not]
    have h0' : (0#32 : BitVec 32).toInt = 0 := by decide
    omega
  show (if BitVec.ofBool (BitVec.slt (v (ix1 e)) 0#32) = 1#1 then _ else v (ix1 e)) = v (ix1 e)
  rw [hs]
  exact if_neg (by decide)

/-- THE RECEIVING END: an edge whose number addresses the sum into node n reads, through the same numbers wrapped, row n. -/
theorem receiver (h0 : S0.BroadcastsInDim SE ![]) (h1 : SE.BroadcastsInDim SE1 ![0]) (v : IVec SE 32)
    (n : Fin 100000) (e : Fin 1700000)
    (he : e ∈ rowsOn (N := 100000) (broadcastInDim SE1 ![0] h1 v) n) :
    rowOf (N := 100000) (by decide) (broadcastInDim SE1 ![0] h1 (wrapped h0 v)) e = n := by
  have hd : (v (ix1 e)).toInt = (n.val : Int) := by
    have h := (Finset.mem_filter.mp he).2
    rwa [column_apply] at h
  apply rowOf_of_toInt
  rw [column_apply, wrapped_of_nonneg h0 v e (by omega)]
  exact hd

/-- The node edge e reads: its number in v, wrapped when negative, clamped into [0, N − 1]. -/
def readNode (h0 : S0.BroadcastsInDim SE ![]) (h1 : SE.BroadcastsInDim SE1 ![0]) (v : IVec SE 32) (e : Fin 1700000) :
    Fin 100000 :=
  rowOf (N := 100000) (by decide) (broadcastInDim SE1 ![0] h1 (wrapped h0 v)) e

/-- The edges summed into node n: those whose number in v, read signed, is n. -/
def landing (h1 : SE.BroadcastsInDim SE1 ![0]) (v : IVec SE 32) (n : Fin 100000) : Finset (Fin 1700000) :=
  rowsOn (N := 100000) (broadcastInDim SE1 ![0] h1 v) n

/-- The receiving end, over these names: an edge summed into node n reads, through the receiving ends' numbers, node n. -/
theorem readNode_of_landing (h0 : S0.BroadcastsInDim SE ![]) (h1 : SE.BroadcastsInDim SE1 ![0]) (v : IVec SE 32)
    (n : Fin 100000) (e : Fin 1700000) (he : e ∈ landing h1 v n) : readNode h0 h1 v e = n :=
  receiver h0 h1 v n e he

/-- A scatter-add of rows into an array of zero words, read at (n, g): the sum of the entries (e, g) of the update rows e
    that land on row n. -/
theorem scatter_rows_zero {N E F : Nat} (wf : ScatterDims.WF ⟨2, ![N, F]⟩ ⟨2, ![E, 1]⟩ ⟨2, ![E, F]⟩ [1] [0] [0] 1)
    (hz : S0.BroadcastsInDim ⟨2, ![N, F]⟩ ![]) {w : Nat} (idx : IVec ⟨2, ![E, 1]⟩ w)
    (upd : FVec Ideal ⟨2, ![E, F]⟩ .f32) (n : Fin N) (g : Fin F) :
    Host.scatterAdd (F := Ideal) (rowDims N E F wf)
        (broadcastInDim ⟨2, ![N, F]⟩ ![] hz (constant (F := Ideal) S0 .f32 0x00000000#32)) idx upd (ix2 n g)
      = ∑ e ∈ rowsOn idx n, upd (ix2 e g) := by
  rw [scatterAdd_rows_apply]
  show Ideal.ofBits .f32 0x00000000#32 + _ = _
  rw [Ideal.ofBits_zero_f32, zero_add]

end Cert.GcnIndex

end
-- ==== Proof.KernelValue.lean ====
/-
  The kernel program's result read at an entry (n, f), at the exact instance: the array-level term of the host side
  (aggregations as gathers and scatter-adds, the two regions' whole-array functions, the last lines) is, entry by entry,
  the kernel's formula of the algebra module over
      g e  = the node edge e reads,     R n = the edges summed into node n,     dv n = the weight column at (n, 0).
  Each operation is read at an index by its own lemma: a scatter-add of rows into zeros is the sum over the rows that
  land, a gather of rows reads the clamped row, a column or a row broadcast reads the column's or the row's entry.
-/
import proofs.«108106_j13176959664143_2_alg».proof.Proof.KernelHost
import proofs.«108106_j13176959664143_2_alg».proof.Proof.GcnAlgebra
import proofs.«108106_j13176959664143_2_alg».proof.Proof.GcnIndex

set_option maxRecDepth 16384

noncomputable section

namespace Cert.KernelIdeal.EntryValue

open Cert.KernelIdeal Cert.KernelIdeal.Gen Idealize.ShloMosaic Idealize.ShloMosaic.TcCoe Idealize.SL.Sem
open Idealize.ShloMosaic.ValueIdx
open Cert.LibGatherRows Cert.LibRowScatter Cert.GcnIndex Cert.KernelIdeal.HostValue

variable (src dst : IVec S1700000 32) (dinv2 : FVec Ideal S100000x1 .f32)
  (x : FVec Ideal S100000x128 .f32) (w1 : FVec Ideal S128x128 .f32) (b1 : FVec Ideal S128 .f32)
  (w2 : FVec Ideal S128x64 .f32) (b2 : FVec Ideal S64 .f32)

/-- The node edge e reads, and the edges summed into node n, over this program's arrays of node numbers. -/
abbrev g (e : Fin 1700000) : Fin 100000 := readNode bcast_S_S1700000 bcast_S1700000_S1700000x1_0 src e
abbrev R (n : Fin 100000) : Finset (Fin 1700000) := landing bcast_S1700000_S1700000x1_0 dst n

/-- The aggregation on 128 columns at (n, k): the sum, over the edges summed into n, of the array at the node the edge
    reads. -/
theorem aggregate128_apply (h : FVec Ideal S100000x128 .f32) (n : Fin 100000) (k : Fin 128) :
    aggregate128 src dst h (ix2 n k) = ∑ e ∈ R dst n, h (ix2 (g src e) k) := by
  refine (scatter_rows_zero (N := 100000) (E := 1700000) (F := 128)
    scatter_S100000x128_S1700000x1_S1700000x128_1_0_0_1_wf bcast_S_S100000x128 (sumRows dst)
    (Host.gather gather_S100000x128_S1700000x1_S1700000x128_1_0_n_n_0_1_1128 h (readRows src)) n k).trans ?_
  exact Finset.sum_congr rfl fun e _ => gather_rows_apply (N := 100000) (E := 1700000) (F := 128) (by decide)
    gather_S100000x128_S1700000x1_S1700000x128_1_0_n_n_0_1_1128_wf h (readRows src) e k

/-- The aggregation on 64 columns at (n, f). -/
theorem aggregate64_apply (h : FVec Ideal S100000x64 .f32) (n : Fin 100000) (f : Fin 64) :
    aggregate64 src dst h (ix2 n f) = ∑ e ∈ R dst n, h (ix2 (g src e) f) := by
  refine (scatter_rows_zero (N := 100000) (E := 1700000) (F := 64)
    scatter_S100000x64_S1700000x1_S1700000x64_1_0_0_1_wf bcast_S_S100000x64 (sumRows dst)
    (Host.gather gather_S100000x64_S1700000x1_S1700000x64_1_0_n_n_0_1_164 h (readRows src)) n f).trans ?_
  exact Finset.sum_congr rfl fun e _ => gather_rows_apply (N := 100000) (E := 1700000) (F := 64) (by decide)
    gather_S100000x64_S1700000x1_S1700000x64_1_0_n_n_0_1_164_wf h (readRows src) e f

/-- The last lines at (n, f): the weight of node n times the aggregate's entry, plus the bias at f. -/
theorem epilogue_apply (a : FVec Ideal S100000x64 .f32) (n : Fin 100000) (f : Fin 64) :
    epilogue dinv2 a b2 (ix2 n f) = dinv2 (ix2 n (0 : Fin 1)) * a (ix2 n f) + b2 (ix1 f) := by
  show (broadcastInDim S100000x64 ![0, 1] bcast_S100000x1_S100000x64_0_1 dinv2 (ix2 n f)) * a (ix2 n f)
      + broadcastInDim S100000x64 ![0, 1] bcast_S1x64_S100000x64_0_1 (broadcastInDim S1x64 ![1] bcast_S64_S1x64_1 b2) (ix2 n f)
    = _
  rw [broadcastInDim_apply _ bcast_S100000x1_S100000x64_0_1 dinv2 (ix2 n f) (ix2 n (0 : Fin 1)) (fun a => match a with
      | ⟨0, _⟩ => by show n.val = if (100000 : Nat) = 1 then 0 else n.val; rw [if_neg (by decide)]
      | ⟨1, _⟩ => by show (0 : Nat) = if (1 : Nat) = 1 then 0 else f.val; rw [if_pos rfl]),
    broadcastInDim_apply _ bcast_S1x64_S100000x64_0_1 (broadcastInDim S1x64 ![1] bcast_S64_S1x64_1 b2) (ix2 n f)
      (ix2 (0 : Fin 1) f) (fun a => match a with
      | ⟨0, _⟩ => by show (0 : Nat) = if (1 : Nat) = 1 then 0 else n.val; rw [if_pos rfl]
      | ⟨1, _⟩ => by show f.val = if (64 : Nat) = 1 then 0 else f.val; rw [if_neg (by decide)]),
    broadcastInDim_apply _ bcast_S64_S1x64_1 b2 (ix2 (0 : Fin 1) f) (ix1 f) (fun a => match a with
      | ⟨0, _⟩ => by show f.val = if (64 : Nat) = 1 then 0 else f.val; rw [if_neg (by decide)])]

/-- The bias vector cast to one row reads, at (0, k), the vector at k. -/
theorem biasRow_apply (k : Fin 128) :
    shapeCast S1x128 b1 shapeCasts_S128_S1x128 (ix2 (0 : Fin 1) k) = b1 (ix1 k) :=
  shapeCast_a_1a_apply b1 shapeCasts_S128_S1x128 0 k

/-- THE KERNEL PROGRAM'S RESULT AT (n, f) is the kernel's formula. -/
theorem result_apply (n : Fin 100000) (f : Fin 64) :
    epilogue dinv2
        (aggregate64 src dst
          (Region1.fusedLayer (aggregate128 src dst (Region0.scaledProduct x w1 dinv2)) dinv2
            (shapeCast S1x128 b1 shapeCasts_S128_S1x128) w2))
        b2 (ix2 n f)
      = Cert.Gcn.kOut (g src) (R dst) (fun n => dinv2 (ix2 n (0 : Fin 1))) (fun n j => x (ix2 n j))
          (fun j k => w1 (ix2 j k)) (fun k => b1 (ix1 k)) (fun k f => w2 (ix2 k f)) (fun f => b2 (ix1 f)) n f := by
  rw [epilogue_apply, aggregate64_apply]
  unfold Cert.Gcn.kOut Cert.Gcn.kAgg
  refine congrArg₂ (· + ·) (congrArg₂ (· * ·) rfl (Finset.sum_congr rfl fun e _ => ?_)) rfl
  rw [Region1.fusedLayer_apply]
  unfold Cert.Gcn.pre2
  refine congrArg₂ (· * ·) (Finset.sum_congr rfl fun k _ => congrArg₂ (· * ·) ?_ rfl) rfl
  unfold Cert.Gcn.hidK
  rw [biasRow_apply, aggregate128_apply, Ideal.ofBits_zero_f32]
  rfl

end Cert.KernelIdeal.EntryValue

end
-- ==== Proof.KernelEntry.lean ====
/-
  What the kernel program's buffers hold when region 0 is entered, as terms of the launch memory: the five float arguments
  as launched (no host operation writes an argument), and the three arrays the first stretches compute from the edge
  list alone — the edges' read ends and receiving ends (each a row of the edge list followed by the nodes 0 … N − 1, the
  self loops) and the column of node weights (the inverse square root of the number of edges summed into the node, 0
  where there is none). The reference program computes the same three arrays by the same operations of the same
  argument, so they are stated here AS the reference's stages: the two terms differ only in the names of the shapes and
  of the side conditions' proofs.
-/
import proofs.«108106_j13176959664143_2_alg».proof.Proof.Gen.KernelIdeal.Frame
import proofs.«108106_j13176959664143_2_alg».proof.Proof.RefReadP
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

section Stretches
variable (Vl : Valuation τ sig (Elt Ideal))

set_option maxHeartbeats 8000000 in
/-- The first three stretches write no float argument. -/
theorem args_kept :
    StableHlo.after hostOps0_2 (StableHlo.after hostOps0_1 (StableHlo.after hostOps0 Vl)) (Proc.devRef .tc main_arg0)
        = Vl (Proc.devRef .tc main_arg0)
    ∧ StableHlo.after hostOps0_2 (StableHlo.after hostOps0_1 (StableHlo.after hostOps0 Vl)) (Proc.devRef .tc main_arg2)
        = Vl (Proc.devRef .tc main_arg2)
    ∧ StableHlo.after hostOps0_2 (StableHlo.after hostOps0_1 (StableHlo.after hostOps0 Vl)) (Proc.devRef .tc main_arg3)
        = Vl (Proc.devRef .tc main_arg3)
    ∧ StableHlo.after hostOps0_2 (StableHlo.after hostOps0_1 (StableHlo.after hostOps0 Vl)) (Proc.devRef .tc main_arg4)
        = Vl (Proc.devRef .tc main_arg4)
    ∧ StableHlo.after hostOps0_2 (StableHlo.after hostOps0_1 (StableHlo.after hostOps0 Vl)) (Proc.devRef .tc main_arg5)
        = Vl (Proc.devRef .tc main_arg5) := by
  refine ⟨?_, ?_, ?_, ?_, ?_⟩ <;> (after_results_simp <;> rfl)

set_option maxHeartbeats 8000000 in
/-- The edges' read ends. -/
theorem readEnds_of :
    StableHlo.after hostOps0_2 (StableHlo.after hostOps0_1 (StableHlo.after hostOps0 Vl)) (Proc.devRef .tc main_v3)
      = Cert.ReferenceIdeal.ReadP.val_main_v3 (F := Ideal) (Vl (Proc.devRef .tc main_arg1)) := by
  after_results_simp <;> rfl

set_option maxHeartbeats 8000000 in
/-- The edges' receiving ends. -/
theorem sumEnds_of :
    StableHlo.after hostOps0_2 (StableHlo.after hostOps0_1 (StableHlo.after hostOps0 Vl)) (Proc.devRef .tc main_v6)
      = Cert.ReferenceIdeal.ReadP.val_main_v6 (F := Ideal) (Vl (Proc.devRef .tc main_arg1)) := by
  after_results_simp <;> rfl

set_option maxHeartbeats 8000000 in
/-- The first stretch's degree test, inverse square roots and zero, as the reference's stages. -/
theorem degree_stages :
    StableHlo.after hostOps0 Vl (Proc.devRef .tc main_v12)
        = Cert.ReferenceIdeal.ReadP.val_main_v12 (F := Ideal) (Vl (Proc.devRef .tc main_arg1))
    ∧ StableHlo.after hostOps0 Vl (Proc.devRef .tc main_v13)
        = Cert.ReferenceIdeal.ReadP.val_main_v13 (F := Ideal) (Vl (Proc.devRef .tc main_arg1))
    ∧ StableHlo.after hostOps0 Vl (Proc.devRef .tc main_cst_2)
        = Cert.ReferenceIdeal.ReadP.val_main_cst_2 (F := Ideal) := by
  refine ⟨?_, ?_, ?_⟩ <;> (after_results_simp <;> rfl)

set_option maxHeartbeats 8000000 in
/-- The second stretch (the selection between the inverse square root and zero), over any contents before it. -/
theorem select_stage (V1 : Valuation τ sig (Elt Ideal)) :
    StableHlo.after hostOps0_1 V1 (Proc.devRef .tc main_v14)
      = select (V1 (Proc.devRef .tc main_v12)) (V1 (Proc.devRef .tc main_v13))
          (broadcastInDim S100000 ![] bcast_S_S100000 (V1 (Proc.devRef .tc main_cst_2))) := by
  after_results_simp <;> rfl

set_option maxHeartbeats 8000000 in
/-- The third stretch (the weights made one column), over any contents before it. -/
theorem column_stage (V2 : Valuation τ sig (Elt Ideal)) :
    StableHlo.after hostOps0_2 V2 (Proc.devRef .tc main_v15)
      = shapeCast S100000x1 (V2 (Proc.devRef .tc main_v14)) shapeCasts_S100000_S100000x1 := by
  after_results_simp <;> rfl

/-- The column of node weights: the reference's weight vector cast to one column. -/
theorem weights_of :
    StableHlo.after hostOps0_2 (StableHlo.after hostOps0_1 (StableHlo.after hostOps0 Vl)) (Proc.devRef .tc main_v15)
      = shapeCast S100000x1 (Cert.ReferenceIdeal.ReadP.val_main_v14 (F := Ideal) (Vl (Proc.devRef .tc main_arg1)))
          shapeCasts_S100000_S100000x1 := by
  rw [column_stage, select_stage, (degree_stages Vl).1, (degree_stages Vl).2.1, (degree_stages Vl).2.2]
  rfl

end Stretches

variable (m : (ℓ : Loc nD τ sig) → Buf (Elt Ideal) ℓ) (ρ : Dev nD → PrngReg) (c : Dev nD)

theorem arg0 : W3 m ρ c (Proc.devRef .tc main_arg0) = m ((c : Thread nD τ).loc main_arg0) := (args_kept (W0 m ρ c)).1
theorem arg2 : W3 m ρ c (Proc.devRef .tc main_arg2) = m ((c : Thread nD τ).loc main_arg2) := (args_kept (W0 m ρ c)).2.1
theorem arg3 : W3 m ρ c (Proc.devRef .tc main_arg3) = m ((c : Thread nD τ).loc main_arg3) := (args_kept (W0 m ρ c)).2.2.1
theorem arg4 : W3 m ρ c (Proc.devRef .tc main_arg4) = m ((c : Thread nD τ).loc main_arg4) := (args_kept (W0 m ρ c)).2.2.2.1
theorem arg5 : W3 m ρ c (Proc.devRef .tc main_arg5) = m ((c : Thread nD τ).loc main_arg5) := (args_kept (W0 m ρ c)).2.2.2.2

theorem readEnds : W3 m ρ c (Proc.devRef .tc main_v3)
    = Cert.ReferenceIdeal.ReadP.val_main_v3 (F := Ideal) (m ((c : Thread nD τ).loc main_arg1)) := readEnds_of (W0 m ρ c)
theorem sumEnds : W3 m ρ c (Proc.devRef .tc main_v6)
    = Cert.ReferenceIdeal.ReadP.val_main_v6 (F := Ideal) (m ((c : Thread nD τ).loc main_arg1)) := sumEnds_of (W0 m ρ c)
theorem weights : W3 m ρ c (Proc.devRef .tc main_v15)
    = shapeCast S100000x1 (Cert.ReferenceIdeal.ReadP.val_main_v14 (F := Ideal) (m ((c : Thread nD τ).loc main_arg1)))
        shapeCasts_S100000_S100000x1 := weights_of (W0 m ρ c)

end Cert.KernelIdeal.Entry

end
-- ==== Proof.RefValue.lean ====
/-
  The reference program's result read at an entry (n, f), at the exact instance. The reference computes each layer as
      gather the rows of the dense product at the nodes the edges read; weight edge e by dv(read end) · dv(receiving end),
      both ends' weights gathered from the weight vector; sum the weighted rows into the receiving nodes; add the bias,
  with a rectifier between the two layers; it computes the edges' node numbers and the weight vector afresh for the second
  layer, by the same operations of the same argument, so they are the first layer's. Stage by stage (each stage read at
  an index by its generated lemma, a gather and a scatter-add by the library's) the result is the reference's formula of
  the algebra module over
      g e = the node edge e reads,   g' e = the node read through the receiving ends' numbers,
      R n = the edges summed into node n,   dv n = the weight vector at n.
-/
import proofs.«108106_j13176959664143_2_alg».proof.Proof.RefReadP
import proofs.«108106_j13176959664143_2_alg».proof.Proof.GcnAlgebra
import proofs.«108106_j13176959664143_2_alg».proof.Proof.GcnIndex

set_option maxRecDepth 16384

noncomputable section

namespace Cert.ReferenceIdeal.EntryValue

open Cert.ReferenceIdeal Cert.ReferenceIdeal.Gen Cert.ReferenceIdeal.ReadP Idealize.ShloMosaic Idealize.ShloMosaic.TcCoe
open Idealize.SL.Sem Idealize.ShloMosaic.ValueIdx
open Cert.LibGatherRows Cert.LibRowScatter Cert.GcnIndex

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The node edge e reads; the node read through the receiving ends' numbers; the edges summed into node n; the weights. -/
abbrev g (e : Fin 1700000) : Fin 100000 :=
  readNode bcast_S_S1700000 bcast_S1700000_S1700000x1_0 (val_main_v3 (F := Ideal) x1) e
abbrev g' (e : Fin 1700000) : Fin 100000 :=
  readNode bcast_S_S1700000 bcast_S1700000_S1700000x1_0 (val_main_v6 (F := Ideal) x1) e
abbrev R (n : Fin 100000) : Finset (Fin 1700000) := landing bcast_S1700000_S1700000x1_0 (val_main_v6 (F := Ideal) x1) n
abbrev dv (n : Fin 100000) : EReal := val_main_v14 (F := Ideal) x1 (ix1 n)

/-! ## The second layer's copies are the first layer's arrays -/

theorem readEnds_again : val_main_v51 (F := Ideal) x1 = val_main_v3 (F := Ideal) x1 := rfl
theorem sumEnds_again : val_main_v54 (F := Ideal) x1 = val_main_v6 (F := Ideal) x1 := rfl
theorem weights_again : val_main_v62 (F := Ideal) x1 = val_main_v14 (F := Ideal) x1 := rfl

/-! ## The columns of node numbers -/

theorem rows_v20 : val_main_v20 (F := Ideal) x1
    = broadcastInDim SE1 ![0] bcast_S1700000_S1700000x1_0 (wrapped bcast_S_S1700000 (val_main_v3 (F := Ideal) x1)) := rfl
theorem rows_v27 : val_main_v27 (F := Ideal) x1
    = broadcastInDim SE1 ![0] bcast_S1700000_S1700000x1_0 (wrapped bcast_S_S1700000 (val_main_v6 (F := Ideal) x1)) := rfl
theorem rows_v36 : val_main_v36 (F := Ideal) x1
    = broadcastInDim SE1 ![0] bcast_S1700000_S1700000x1_0 (wrapped bcast_S_S1700000 (val_main_v3 (F := Ideal) x1)) := rfl
theorem rows_v42 : val_main_v42 (F := Ideal) x1
    = broadcastInDim SE1 ![0] bcast_S1700000_S1700000x1_0 (val_main_v6 (F := Ideal) x1) := rfl
theorem rows_v68 : val_main_v68 (F := Ideal) x1
    = broadcastInDim SE1 ![0] bcast_S1700000_S1700000x1_0 (wrapped bcast_S_S1700000 (val_main_v3 (F := Ideal) x1)) := rfl
theorem rows_v75 : val_main_v75 (F := Ideal) x1
    = broadcastInDim SE1 ![0] bcast_S1700000_S1700000x1_0 (wrapped bcast_S_S1700000 (val_main_v6 (F := Ideal) x1)) := rfl
theorem rows_v84 : val_main_v84 (F := Ideal) x1
    = broadcastInDim SE1 ![0] bcast_S1700000_S1700000x1_0 (wrapped bcast_S_S1700000 (val_main_v3 (F := Ideal) x1)) := rfl
theorem rows_v90 : val_main_v90 (F := Ideal) x1
    = broadcastInDim SE1 ![0] bcast_S1700000_S1700000x1_0 (val_main_v6 (F := Ideal) x1) := rfl

/-! ## Layer 1 -/

/-- Edge e's weight: the read end's times the receiving end's. -/
theorem edgeWeight1 (e : Fin 1700000) : val_main_v29 (F := Ideal) x1 (ix1 e) = dv x1 (g x1 e) * dv x1 (g' x1 e) := by
  rw [val_main_v29_apply]
  refine congrArg₂ (· * ·) ?_ ?_
  · unfold val_main_v21
    rw [rows_v20]
    exact gather_vec_apply (N := 100000) (E := 1700000) (by decide) gather_S100000_S1700000x1_S1700000_n_0_n_n_0_1_1_wf (val_main_v14 (F := Ideal) x1) _ e
  · unfold val_main_v28
    rw [rows_v27]
    exact gather_vec_apply (N := 100000) (E := 1700000) (by decide) gather_S100000_S1700000x1_S1700000_n_0_n_n_0_1_1_wf (val_main_v14 (F := Ideal) x1) _ e

/-- The first dense product at (n, k). -/
theorem dense1 (n : Fin 100000) (k : Fin 128) :
    val_main_v30 (F := Ideal) x0 x2 (ix2 n k) = ∑ j : Fin 128, x0 (ix2 n j) * x2 (ix2 j k) := by
  rw [val_main_v30_apply]
  refine Finset.sum_congr rfl fun j _ => congrArg₂ (· * ·) (congrArg x0 ?_) (congrArg x2 ?_)
  · funext a; match a with | ⟨0, _⟩ => rfl | ⟨1, _⟩ => rfl
  · funext a; match a with | ⟨0, _⟩ => rfl | ⟨1, _⟩ => rfl

/-- The first layer's weighted message of edge e at column k. -/
theorem message1 (e : Fin 1700000) (k : Fin 128) :
    val_main_v40 (F := Ideal) x0 x1 x2 (ix2 e k)
      = (∑ j : Fin 128, x0 (ix2 (g x1 e) j) * x2 (ix2 j k)) * (dv x1 (g x1 e) * dv x1 (g' x1 e)) := by
  rw [val_main_v40_apply]
  refine congrArg₂ (· * ·) ?_ ?_
  · unfold val_main_v37
    rw [rows_v36]
    refine (gather_rows_apply (N := 100000) (E := 1700000) (F := 128) (by decide)
      gather_S100000x128_S1700000x1_S1700000x128_1_0_n_n_0_1_1128_wf (val_main_v30 (F := Ideal) x0 x2) _ e k).trans ?_
    exact dense1 x0 x2 _ k
  · rw [val_main_v39_apply, val_main_v38_apply]
    have hi : idx_main_v38 (idx_main_v39 (ix2 e k)) = ix1 e := by
      funext a; match a with | ⟨0, _⟩ => rfl
    rw [hi]
    exact edgeWeight1 x1 e

/-- The first layer before the rectifier at (n, k). -/
theorem layer1 (n : Fin 100000) (k : Fin 128) :
    val_main_v46 (F := Ideal) x0 x1 x2 x3 (ix2 n k)
      = Cert.Gcn.rAgg (g x1) (g' x1) (R x1) (dv x1) (Cert.Gcn.lin1 (fun n j => x0 (ix2 n j)) (fun j k => x2 (ix2 j k))) n k
        + x3 (ix1 k) := by
  rw [val_main_v46_apply]
  refine congrArg₂ (· + ·) ?_ ?_
  · unfold val_main_v43 val_main_v41 val_main_cst_8
    rw [rows_v42]
    refine (scatter_rows_zero (N := 100000) (E := 1700000) (F := 128)
      scatter_S100000x128_S1700000x1_S1700000x128_1_0_0_1_wf bcast_S_S100000x128 _ _ n k).trans ?_
    exact Finset.sum_congr rfl fun e _ => message1 x0 x1 x2 e k
  · rw [val_main_v45_apply, val_main_v44_apply]
    refine congrArg x3 ?_
    funext a; match a with | ⟨0, _⟩ => rfl

/-- The rectified first layer at (n, k). -/
theorem hidden (n : Fin 100000) (k : Fin 128) :
    val_main_v47 (F := Ideal) x0 x1 x2 x3 (ix2 n k)
      = Cert.Gcn.hidR (g x1) (g' x1) (R x1) (dv x1) (fun n j => x0 (ix2 n j)) (fun j k => x2 (ix2 j k))
          (fun k => x3 (ix1 k)) n k := by
  rw [val_main_v47_apply, layer1]
  unfold Cert.Gcn.hidR
  show max _ (Ideal.ofBits .f32 0x00000000#32) = _
  rw [Ideal.ofBits_zero_f32]

/-! ## Layer 2 -/

/-- Edge e's weight, computed afresh: the same. -/
theorem edgeWeight2 (e : Fin 1700000) : val_main_v77 (F := Ideal) x1 (ix1 e) = dv x1 (g x1 e) * dv x1 (g' x1 e) := by
  rw [val_main_v77_apply]
  refine congrArg₂ (· * ·) ?_ ?_
  · unfold val_main_v69
    rw [rows_v68, weights_again]
    exact gather_vec_apply (N := 100000) (E := 1700000) (by decide) gather_S100000_S1700000x1_S1700000_n_0_n_n_0_1_1_wf (val_main_v14 (F := Ideal) x1) _ e
  · unfold val_main_v76
    rw [rows_v75, weights_again]
    exact gather_vec_apply (N := 100000) (E := 1700000) (by decide) gather_S100000_S1700000x1_S1700000_n_0_n_n_0_1_1_wf (val_main_v14 (F := Ideal) x1) _ e

/-- The second dense product at (n, f). -/
theorem dense2 (n : Fin 100000) (f : Fin 64) :
    val_main_v78 (F := Ideal) x0 x1 x2 x3 x4 (ix2 n f)
      = Cert.Gcn.lin2 (g x1) (g' x1) (R x1) (dv x1) (fun n j => x0 (ix2 n j)) (fun j k => x2 (ix2 j k))
          (fun k => x3 (ix1 k)) (fun k f => x4 (ix2 k f)) n f := by
  rw [val_main_v78_apply]
  unfold Cert.Gcn.lin2
  refine Finset.sum_congr rfl fun k _ => congrArg₂ (· * ·) ?_ (congrArg x4 ?_)
  · have hi : lidx_main_v78 (ix2 n f) k = ix2 n k := by
      funext a; match a with | ⟨0, _⟩ => rfl | ⟨1, _⟩ => rfl
    rw [hi]
    exact hidden x0 x1 x2 x3 n k
  · funext a; match a with | ⟨0, _⟩ => rfl | ⟨1, _⟩ => rfl

/-- The second layer's weighted message of edge e at column f. -/
theorem message2 (e : Fin 1700000) (f : Fin 64) :
    val_main_v88 (F := Ideal) x0 x1 x2 x3 x4 (ix2 e f)
      = Cert.Gcn.lin2 (g x1) (g' x1) (R x1) (dv x1) (fun n j => x0 (ix2 n j)) (fun j k => x2 (ix2 j k))
          (fun k => x3 (ix1 k)) (fun k f => x4 (ix2 k f)) (g x1 e) f * (dv x1 (g x1 e) * dv x1 (g' x1 e)) := by
  rw [val_main_v88_apply]
  refine congrArg₂ (· * ·) ?_ ?_
  · unfold val_main_v85
    rw [rows_v84]
    refine (gather_rows_apply (N := 100000) (E := 1700000) (F := 64) (by decide)
      gather_S100000x64_S1700000x1_S1700000x64_1_0_n_n_0_1_164_wf (val_main_v78 (F := Ideal) x0 x1 x2 x3 x4) _ e f).trans ?_
    exact dense2 x0 x1 x2 x3 x4 _ f
  · rw [val_main_v87_apply, val_main_v86_apply]
    have hi : idx_main_v86 (idx_main_v87 (ix2 e f)) = ix1 e := by
      funext a; match a with | ⟨0, _⟩ => rfl
    rw [hi]
    exact edgeWeight2 x1 e

/-- THE REFERENCE PROGRAM'S RESULT AT (n, f) is the reference's formula. -/
theorem result_apply (n : Fin 100000) (f : Fin 64) :
    val_main_v94 (F := Ideal) x0 x1 x2 x3 x4 x5 (ix2 n f)
      = Cert.Gcn.rOut (g x1) (g' x1) (R x1) (dv x1) (fun n j => x0 (ix2 n j)) (fun j k => x2 (ix2 j k))
          (fun k => x3 (ix1 k)) (fun k f => x4 (ix2 k f)) (fun f => x5 (ix1 f)) n f := by
  rw [val_main_v94_apply]
  unfold Cert.Gcn.rOut Cert.Gcn.rAgg
  refine congrArg₂ (· + ·) ?_ ?_
  · unfold val_main_v91 val_main_v89 val_main_cst_19
    rw [rows_v90]
    refine (scatter_rows_zero (N := 100000) (E := 1700000) (F := 64)
      scatter_S100000x64_S1700000x1_S1700000x64_1_0_0_1_wf bcast_S_S100000x64 _ _ n f).trans ?_
    exact Finset.sum_congr rfl fun e _ => message2 x0 x1 x2 x3 x4 e f
  · rw [val_main_v93_apply, val_main_v92_apply]
    refine congrArg x5 ?_
    funext a; match a with | ⟨0, _⟩ => rfl

end Cert.ReferenceIdeal.EntryValue

end
-- ==== Proof.FiniteInputs.lean ====
/-
  The precondition read: `finite_inputs` is the conjunction, over the five float inputs, of "every entry's absolute value
  is below the word of plus infinity". At the exact instance an entry is an extended real, its absolute value is the larger
  of it and its negation, and that word is +∞; so the conjunct of an input says that no entry of it is +∞ or −∞: every
  entry is a real number. (The integer input carries no condition.)
-/
import proofs.«108106_j13176959664143_2_alg».proof.Pre_finite_inputs
import proofs.«108106_j13176959664143_2_alg».proof.Proof.LibRealEntries
import Idealize.ShloMosaic.PureOps.Ideal
import Idealize.ShloMosaic.Lib.ReduceAll
import Idealize.ShloMosaic.Lib.Affine
import Idealize.ShloMosaic.Lib.ValueIdx

noncomputable section

namespace Cert.FiniteInputs

open Idealize.ShloMosaic Cert.Lib.RealEntries Cert.Pre_finite_inputs

instance : Subsingleton S_.Idx := ⟨fun a b => funext fun d => d.elim0⟩

/-- The word 0x7F800000 is plus infinity. -/
theorem top_word : Ideal.ofBits .f32 0x7F800000#32 = (⊤ : EReal) := by
  simp [Ideal.ofBits, Ideal.ieee]

/-- An extended real whose absolute value is below +∞ is a real number. -/
theorem isR_of_abs_lt (x : EReal) (h : Ideal.cmp .olt (max x (-x)) (Ideal.ofBits .f32 0x7F800000#32) = 1#1) : IsR x := by
  rw [top_word] at h
  have hlt : max x (-x) < (⊤ : EReal) := by
    by_cases hc : max x (-x) < (⊤ : EReal)
    · exact hc
    · have h' : BitVec.ofBool (decide (max x (-x) < (⊤ : EReal))) = 1#1 := h
      rw [decide_eq_false hc] at h'
      exact absurd h' (by decide)
  refine isR_of_ne ?_ ?_
  · rintro rfl
    simp at hlt
  · rintro rfl
    simp at hlt

/-- One input's conjunct: the reduction by `and` of the entrywise test is 1, so every entry is real. -/
theorem allR_of_all {s : Shape} {axes : List (Fin s.rank)} (a : FVec Ideal s .f32) (hb : S_.BroadcastsInDim s ![])
    (hr : s.ReducesTo axes S_) (hu : 0 < S_.numel)
    (h : Host.reduce IntOp.andi
        (cmpf (F := Ideal) .olt (Host.absf a) (broadcastInDim s ![] hb (constant (F := Ideal) S_ .f32 0x7F800000#32)))
        (constantI S_ 1 1#1) hr hu ValueIdx.ix0 = 1#1) (i : s.Idx) : IsR (a i) :=
  isR_of_abs_lt (a i) (Host.reduce_andi_all _ _ hr hu ValueIdx.ix0 h i)

variable [Cert.Pre_finite_inputs.Facts]

/-- THE PRECONDITION SAYS: every entry of each of the five float inputs is a real number. -/
theorem entries_real (a0 : FVec Ideal S100000x128 .f32) (a1 : IVec S2x1600000 32) (a2 : FVec Ideal S128x128 .f32)
    (a3 : FVec Ideal S128 .f32) (a4 : FVec Ideal S128x64 .f32) (a5 : FVec Ideal S64 .f32)
    (hpre : Cert.Pre_finite_inputs.fn (F := Ideal) a0 a1 a2 a3 a4 a5 = fun _ => 1#1) :
    (∀ i, IsR (a0 i)) ∧ (∀ i, IsR (a2 i)) ∧ (∀ i, IsR (a3 i)) ∧ (∀ i, IsR (a4 i)) ∧ (∀ i, IsR (a5 i)) := by
  have h := congrFun hpre ValueIdx.ix0
  unfold Cert.Pre_finite_inputs.fn Cert.Pre_finite_inputs.fn_part1 at h
  dsimp only at h
  obtain ⟨h0123, h5⟩ := IntOp.andi_eq_one.mp h
  obtain ⟨h012, h4⟩ := IntOp.andi_eq_one.mp h0123
  obtain ⟨h01, h3⟩ := IntOp.andi_eq_one.mp h012
  obtain ⟨h0, h2⟩ := IntOp.andi_eq_one.mp h01
  exact ⟨allR_of_all a0 Facts.bcast_S_S100000x128 Facts.reducesTo_S100000x128_S_d0_1 Facts.h_S_ h0,
    allR_of_all a2 Facts.bcast_S_S128x128 Facts.reducesTo_S128x128_S_d0_1 Facts.h_S_ h2,
    allR_of_all a3 Facts.bcast_S_S128 Facts.reducesTo_S128_S_d0 Facts.h_S_ h3,
    allR_of_all a4 Facts.bcast_S_S128x64 Facts.reducesTo_S128x64_S_d0_1 Facts.h_S_ h4,
    allR_of_all a5 Facts.bcast_S_S64 Facts.reducesTo_S64_S_d0 Facts.h_S_ h5⟩

end Cert.FiniteInputs

end
-- ==== Proof.Bridge.lean ====
/-
  The two programs' results are one array, and the five claims.

  On a core, the kernel program's result buffer ends at the last contents of the fold through its stretches and regions;
  read back to region 0's entry and from there to the launch memory, entry (n, f) of it is the kernel's formula over the
  launch memory's arrays. The reference program's result, stage by stage, is the reference's formula over ITS launch
  memory's arrays, which agree with the kernel's. Both formulas are over the same read ends g, the same sets R of edges
  summed into a node and the same node weights dv, because the two programs compute those three from the edge list by the
  same operations. The formulas agree (the algebra module) when every entry is real — the float inputs' by the
  precondition; a node's weight always: it is the inverse square root of a number the program has tested positive (real for
  a positive real, 0 for +∞), or else the zero word — and when an edge summed into node n reads, through the receiving
  ends' numbers, node n (the index module).
-/
import proofs.«108106_j13176959664143_2_alg».proof.Defs
import proofs.«108106_j13176959664143_2_alg».proof.Proof.Gen.Kernel.Frame
import proofs.«108106_j13176959664143_2_alg».proof.Proof.Gen.KernelIdeal.Frame
import proofs.«108106_j13176959664143_2_alg».proof.Proof.Gen.Pre_finite_inputs
import proofs.«108106_j13176959664143_2_alg».proof.Proof.KernelRun
import proofs.«108106_j13176959664143_2_alg».proof.Proof.KernelValue
import proofs.«108106_j13176959664143_2_alg».proof.Proof.KernelEntry
import proofs.«108106_j13176959664143_2_alg».proof.Proof.RefValue
import proofs.«108106_j13176959664143_2_alg».proof.Proof.FiniteInputs

set_option maxRecDepth 16384

noncomputable section

namespace Cert.Proof.Bridge

open Idealize.ShloMosaic Idealize.ShloMosaic.TcCoe Idealize.SL.Sem Idealize.ShloMosaic.ValueIdx
open Cert.Lib.RealEntries

/-- A node's weight is real whatever its degree d is: the inverse square root where d is above 0, else the zero word. -/
theorem isR_weight (d : EReal) :
    IsR (Scalar.select (Ideal.cmp .ogt d (Ideal.ofBits .f32 0x00000000#32)) (Ideal.rsqrt d) (Ideal.ofBits .f32 0x00000000#32)) := by
  rw [Ideal.ofBits_zero_f32]
  show IsR (if BitVec.ofBool (decide ((0 : EReal) < d)) = 1#1 then Ideal.rsqrt d else 0)
  by_cases hc : (0 : EReal) < d
  · rw [decide_eq_true hc, if_pos (by decide)]
    induction d using EReal.rec with
    | bot => exact absurd hc (by simp)
    | coe r => exact isR_rsqrt (by exact_mod_cast hc)
    | top => rw [Ideal.rsqrt_top]; exact isR_zero
  · rw [decide_eq_false hc, if_neg (by decide)]
    exact isR_zero

/-- The reference's weight vector has real entries. -/
theorem isR_weights (x1 : (⟨Cert.ReferenceIdeal.S2x1600000, .i32⟩ : BufTy).Contents (Elt Ideal)) (n : Fin 100000) :
    IsR (Cert.ReferenceIdeal.ReadP.val_main_v14 (F := Ideal) x1 (ix1 n)) := by
  rw [Cert.ReferenceIdeal.ReadP.val_main_v14_apply, Cert.ReferenceIdeal.ReadP.val_main_v12_apply,
    Cert.ReferenceIdeal.ReadP.val_main_v13_apply, Cert.ReferenceIdeal.ReadP.val_main_v11_apply,
    Cert.ReferenceIdeal.ReadP.val_main_cst_1_apply, Cert.ReferenceIdeal.ReadP.val_main_call0_v1_apply,
    Cert.ReferenceIdeal.ReadP.val_main_call0_v0_apply, Cert.ReferenceIdeal.ReadP.val_main_cst_2_apply]
  generalize Cert.ReferenceIdeal.ReadP.val_main_v10 (F := Ideal) x1 (ix1 n) = d
  exact isR_weight d

/-- THE TWO RESULTS ARE ONE ARRAY, from launch memories that agree on the arguments, under the precondition. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.ReferenceIdeal.ReadP.val_main_v94 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Gen.W7 m ρ c (Proc.devRef .tc Cert.KernelIdeal.main_v43) := by
  obtain ⟨h0, h2, h3, h4, h5⟩ := Cert.FiniteInputs.entries_real _ _ _ _ _ _ hpre
  rw [Cert.KernelIdeal.HostValue.result_eq, Cert.KernelIdeal.Entry.arg0, Cert.KernelIdeal.Entry.arg2,
    Cert.KernelIdeal.Entry.arg3, Cert.KernelIdeal.Entry.arg4, Cert.KernelIdeal.Entry.arg5,
    Cert.KernelIdeal.Entry.readEnds, Cert.KernelIdeal.Entry.sumEnds, Cert.KernelIdeal.Entry.weights]
  refine funext fun (i : Cert.KernelIdeal.S100000x64.Idx) => ?_
  have hi : i = ix2 (⟨(i 0).val, idx2_lt0 i⟩ : Fin 100000) (⟨(i 1).val, idx2_lt1 i⟩ : Fin 64) := eq_ix2 i
  rw [hi, Cert.ReferenceIdeal.EntryValue.result_apply, Cert.KernelIdeal.EntryValue.result_apply]
  -- the weight column at (n, 0) is the weight vector at n
  have hdv : (fun n : Fin 100000 => shapeCast Cert.KernelIdeal.S100000x1
        (Cert.ReferenceIdeal.ReadP.val_main_v14 (F := Ideal)
          (m ((c.tc : Thread Cert.KernelIdeal.nD Cert.KernelIdeal.τ).loc Cert.KernelIdeal.main_arg1)))
        Cert.KernelIdeal.Facts₀.shapeCasts_S100000_S100000x1 (ix2 n (0 : Fin 1)))
      = fun n : Fin 100000 => Cert.ReferenceIdeal.ReadP.val_main_v14 (F := Ideal)
          (m ((c.tc : Thread Cert.KernelIdeal.nD Cert.KernelIdeal.τ).loc Cert.KernelIdeal.main_arg1)) (ix1 n) :=
    funext fun n => Cert.LibDense.shapeCast_a_a1_apply _ _ n 0
  rw [hdv]
  exact Cert.Gcn.rOut_eq_kOut _ _ _ _ _ _ _ _ _
    (fun n e he => Cert.GcnIndex.readNode_of_landing _ _ _ n e he)
    (fun n => isR_weights _ n) (fun n j => h0 _) (fun j k => h2 _) (fun k => h3 _) (fun k f => h4 _) _ _

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the exact instance both programs run; the kernel program's result buffer ends at the last contents of its fold, the
    reference's at its composed term, and the two are one array. -/
theorem algebraic : Cert.algebraic_KernelIdeal_ReferenceIdeal := by
  intro m ρ m' ρ' hpre hagree
  refine ⟨fun c => Cert.KernelIdeal.Gen.W7 m ρ c (Proc.devRef .tc Cert.KernelIdeal.main_v43),
    Cert.KernelIdeal.RunValue.run_out m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v94_eq, (hagree c).1, (hagree c).2.1, (hagree c).2.2.1, (hagree c).2.2.2.1,
    (hagree c).2.2.2.2.1, (hagree c).2.2.2.2.2]
  exact results_agree m ρ c (hpre c)

end Cert.Proof.Bridge

end
-- ==== Proof.lean ====
/-
  The certificate's proof. The kernel is a two-layer graph convolution: with d the inverse square root of a node's degree
  (self loops added), each layer sends node features H to  n ↦ ∑ over the edges e summed into n of H(read end of e) · d(read
  end) · d(n), plus a bias, with a rectifier between the layers. The reference weights every edge by both ends; the kernel
  scales each node's row by its own weight inside the two matrix-product kernels and scales each sum by the receiving
  node's weight afterwards. The two agree on real numbers (a real factor passes through a finite sum); the precondition
  makes every float input real, and the weights are real by their own definition.

  Modules: GcnAlgebra (the two formulas and their equality, no program), GcnIndex (the edges' node numbers read at an edge),
  LibGatherRows / LibRowScatter / LibDense / LibRealEntries (general lemmas), KernelRegion0 / KernelRegion1 (each region's
  array as one function of what it reads), KernelHost / KernelEntry / KernelValue (the kernel program's host side and its
  result at an entry), RefValue (the reference's result at an entry), FiniteInputs (the precondition read), Bridge (the two
  results are one array; the five claims).
-/
import proofs.«108106_j13176959664143_2_alg».proof.Defs
import proofs.«108106_j13176959664143_2_alg».proof.Proof.Gen.Kernel
import proofs.«108106_j13176959664143_2_alg».proof.Proof.Gen.Kernel.Skeleton
import proofs.«108106_j13176959664143_2_alg».proof.Proof.Gen.Kernel.Launch
import proofs.«108106_j13176959664143_2_alg».proof.Proof.Gen.Kernel.Points
import proofs.«108106_j13176959664143_2_alg».proof.Proof.Gen.Kernel.Frame
import proofs.«108106_j13176959664143_2_alg».proof.Proof.Gen.KernelIdeal
import proofs.«108106_j13176959664143_2_alg».proof.Proof.Gen.KernelIdeal.Skeleton
import proofs.«108106_j13176959664143_2_alg».proof.Proof.Gen.KernelIdeal.Launch
import proofs.«108106_j13176959664143_2_alg».proof.Proof.Gen.KernelIdeal.Points
import proofs.«108106_j13176959664143_2_alg».proof.Proof.Gen.KernelIdeal.Frame
import proofs.«108106_j13176959664143_2_alg».proof.Proof.Gen.ReferenceIdeal
import proofs.«108106_j13176959664143_2_alg».proof.Proof.Gen.Pre_finite_inputs
import proofs.«108106_j13176959664143_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Bridge.frame_k, Bridge.frame_ki, Bridge.frame_ri, Bridge.preserves, Bridge.algebraic⟩

end Cert.Proof

end
